-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000x3 : Shape := ⟨2, ![1000000, 3]⟩
abbrev S119 : Shape := ⟨1, ![119]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1000000 : Shape := ⟨1, ![1000000]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S1000000x3 : S_.BroadcastsInDim S1000000x3 (![] : Fin 0 → Fin S1000000x3.rank)
  reducesTo_S1000000x3_S_d0_1 : S1000000x3.ReducesTo [0, 1] S_
  bcast_S_S119 : S_.BroadcastsInDim S119 (![] : Fin 0 → Fin S119.rank)
  reducesTo_S119_S_d0 : S119.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg2 : FVec F S119 .f32) (main_v33 : IVec S_ 1) : IVec S_ 1 :=
  let main_cst_12 : FVec F S_ .f32 := constant S_ .f32 0x00000000#32
  let main_v34 : FVec F S119 .f32 := broadcastInDim S119 ![] bcast_S_S119 main_cst_12
  let main_v35 : IVec S119 1 := cmpf .ogt main_arg2 main_v34
  let main_c_13 : IVec S_ 1 := constantI S_ 1 1#1
  let main_v36 : IVec S_ 1 := (fun x v => Host.reduce IntOp.andi x v reducesTo_S119_S_d0 h_S_) main_v35 main_c_13
  let main_v37 : IVec S_ 1 := andi main_v33 main_v36
  main_v37

def fn_part1 {F : FTy → Type} [FloatOps F] (main_arg2 : FVec F S119 .f32) (main_arg4 : FVec F S64 .f32) (main_arg5 : FVec F S64x1 .f32) (main_arg6 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg2 main_v33

def fn {F : FTy → Type} [FloatOps F] (main_arg0 : FVec F S1000000x128 .f32) (main_arg1 : FVec F S1000000x3 .f32) (main_arg2 : FVec F S119 .f32) (main_arg3 : FVec F S128x64 .f32) (main_arg4 : FVec F S64 .f32) (main_arg5 : FVec F S64x1 .f32) (main_arg6 : FVec F S1 .f32) (main_arg7 : IVec S1000000 32) (main_arg8 : IVec S1000000 32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S1000000x3 .f32 := Host.absf main_arg1
  let main_cst_0 : FVec F S_ .f32 := constant S_ .f32 0x7F800000#32
  let main_v5 : FVec F S1000000x3 .f32 := broadcastInDim S1000000x3 ![] bcast_S_S1000000x3 main_cst_0
  let main_v6 : IVec S1000000x3 1 := cmpf .olt main_v4 main_v5
  let main_c_1 : IVec S_ 1 := constantI S_ 1 1#1
  let main_v7 : IVec S_ 1 := (fun x v => Host.reduce IntOp.andi x v reducesTo_S1000000x3_S_d0_1 h_S_) main_v6 main_c_1
  let main_v8 : IVec S_ 1 := andi main_v3 main_v7
  let main_v9 : FVec F S119 .f32 := Host.absf main_arg2
  let main_cst_2 : FVec F S_ .f32 := constant S_ .f32 0x7F800000#32
  let main_v10 : FVec F S119 .f32 := broadcastInDim S119 ![] bcast_S_S119 main_cst_2
  let main_v11 : IVec S119 1 := cmpf .olt main_v9 main_v10
  let main_c_3 : IVec S_ 1 := constantI S_ 1 1#1
  let main_v12 : IVec S_ 1 := (fun x v => Host.reduce IntOp.andi x v reducesTo_S119_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg2 main_arg4 main_arg5 main_arg6 main_v13 main_v16
-- ==== Kernel.lean ====
abbrev S1000000x128 : Shape := ⟨2, ![1000000, 128]⟩
abbrev S1000000x3 : Shape := ⟨2, ![1000000, 3]⟩
abbrev S119 : Shape := ⟨1, ![119]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1000000 : Shape := ⟨1, ![1000000]⟩
abbrev S_ : Shape := ⟨0, ![]⟩
abbrev S1000000x1 : Shape := ⟨2, ![1000000, 1]⟩
abbrev S50000x1 : Shape := ⟨2, ![50000, 1]⟩
abbrev S50000x3 : Shape := ⟨2, ![50000, 3]⟩
abbrev S1x64 : Shape := ⟨2, ![1, 64]⟩
abbrev S1x1 : Shape := ⟨2, ![1, 1]⟩
abbrev S8000x128 : Shape := ⟨2, ![8000, 128]⟩
abbrev S8000x1 : Shape := ⟨2, ![8000, 1]⟩
abbrev S8000x64 : Shape := ⟨2, ![8000, 64]⟩

abbrev nBuf : Space → Nat
  | .hbm => 60
  | .vmem => 10
  | .smem => 0
  | _ => 0

abbrev bufTy : (tb : Table) → Fin (tcTables nBuf tb) → BufTy
  | .hbm, ⟨0, _⟩ => ⟨S1000000x128, .f32⟩
  | .hbm, ⟨1, _⟩ => ⟨S1000000x3, .f32⟩
  | .hbm, ⟨2, _⟩ => ⟨S119, .f32⟩
  | .hbm, ⟨3, _⟩ => ⟨S128x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S1000000, .i32⟩
  | .hbm, ⟨8, _⟩ => ⟨S1000000, .i32⟩
  | .hbm, ⟨9, _⟩ => ⟨S_, .i32⟩
  | .hbm, ⟨10, _⟩ => ⟨S1000000, .i32⟩
  | .hbm, ⟨11, _⟩ => ⟨S1000000, .i1⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1000000x1, .i32⟩
  | .hbm, ⟨17, _⟩ => ⟨S1000000, .f32⟩
  | .hbm, ⟨18, _⟩ => ⟨S1000000x1, .f32⟩
  | .hbm, ⟨19, _⟩ => ⟨S1000000x3, .f32⟩
  | .hbm, ⟨20, _⟩ => ⟨S1000000x3, .f32⟩
  | .hbm, ⟨21, _⟩ => ⟨S_, .f32⟩
  | .hbm, ⟨22, _⟩ => ⟨S50000x1, .f32⟩
  | .hbm, ⟨23, _⟩ => ⟨S1000000x1, .i32⟩
  | .hbm, ⟨24, _⟩ => ⟨S50000x1, .f32⟩
  | .hbm, ⟨25, _⟩ => ⟨S_, .f32⟩
  | .hbm, ⟨26, _⟩ => ⟨S50000x3, .f32⟩
  | .hbm, ⟨27, _⟩ => ⟨S1000000x1, .i32⟩
  | .hbm, ⟨28, _⟩ => ⟨S50000x3, .f32⟩
  | .hbm, ⟨29, _⟩ => ⟨S_, .f32⟩
  | .hbm, ⟨30, _⟩ => ⟨S50000x1, .f32⟩
  | .hbm, ⟨31, _⟩ => ⟨S50000x1, .i1⟩
  | .hbm, ⟨32, _⟩ => ⟨S50000x3, .f32⟩
  | .hbm, ⟨33, _⟩ => ⟨S50000x3, .f32⟩
  | .hbm, ⟨34, _⟩ => ⟨S_, .f32⟩
  | .hbm, ⟨35, _⟩ => ⟨S_, .f32⟩
  | .hbm, ⟨36, _⟩ => ⟨S50000x3, .i1⟩
  | .hbm, ⟨37, _⟩ => ⟨S50000x3, .f32⟩
  | .hbm, ⟨38, _⟩ => ⟨S50000x3, .f32⟩
  | .hbm, ⟨39, _⟩ => ⟨S_, .i32⟩
  | .hbm, ⟨40, _⟩ => ⟨S1000000, .i32⟩
  | .hbm, ⟨41, _⟩ => ⟨S1000000, .i1⟩
  | .hbm, ⟨42, _⟩ => ⟨S_, .i32⟩
  | .hbm, ⟨43, _⟩ => ⟨S1000000, .i32⟩
  | .hbm, ⟨44, _⟩ => ⟨S1000000, .i32⟩
  | .hbm, ⟨45, _⟩ => ⟨S1000000, .i32⟩
  | .hbm, ⟨46, _⟩ => ⟨S1000000x1, .i32⟩
  | .hbm, ⟨47, _⟩ => ⟨S1000000x3, .f32⟩
  | .hbm, ⟨48, _⟩ => ⟨S1000000x3, .f32⟩
  | .hbm, ⟨49, _⟩ => ⟨S1000000x3, .f32⟩
  | .hbm, ⟨50, _⟩ => ⟨S_, .f32⟩
  | .hbm, ⟨51, _⟩ => ⟨S1000000, .f32⟩
  | .hbm, ⟨52, _⟩ => ⟨S1000000x1, .f32⟩
  | .hbm, ⟨53, _⟩ => ⟨S1x64, .f32⟩
  | .hbm, ⟨54, _⟩ => ⟨S1x1, .f32⟩
  | .hbm, ⟨55, _⟩ => ⟨S1000000x1, .f32⟩
  | .hbm, ⟨56, _⟩ => ⟨S_, .f32⟩
  | .hbm, ⟨57, _⟩ => ⟨S50000x1, .f32⟩
  | .hbm, ⟨58, _⟩ => ⟨S1000000x1, .i32⟩
  | .hbm, ⟨59, _⟩ => ⟨S50000x1, .f32⟩
  | .local _ .vmem, ⟨0, _⟩ => ⟨S8000x128, .f32⟩
  | .local _ .vmem, ⟨1, _⟩ => ⟨S8000x128, .f32⟩
  | .local _ .vmem, ⟨2, _⟩ => ⟨S8000x1, .f32⟩
  | .local _ .vmem, ⟨3, _⟩ => ⟨S8000x1, .f32⟩
  | .local _ .vmem, ⟨4, _⟩ => ⟨S128x64, .f32⟩
  | .local _ .vmem, ⟨5, _⟩ => ⟨S1x64, .f32⟩
  | .local _ .vmem, ⟨6, _⟩ => ⟨S64x1, .f32⟩
  | .local _ .vmem, ⟨7, _⟩ => ⟨S1x1, .f32⟩
  | .local _ .vmem, ⟨8, _⟩ => ⟨S8000x1, .f32⟩
  | .local _ .vmem, ⟨9, _⟩ => ⟨S8000x1, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x3_0_1 : S1000000x1.BroadcastsInDim S1000000x3 (![0, 1] : Fin 2 → Fin S1000000x3.rank)
  bcast_S_S50000x1 : S_.BroadcastsInDim S50000x1 (![] : Fin 0 → Fin S50000x1.rank)
  bcast_S_S50000x3 : S_.BroadcastsInDim S50000x3 (![] : Fin 0 → Fin S50000x3.rank)
  bcast_S50000x1_S50000x3_0_1 : S50000x1.BroadcastsInDim S50000x3 (![0, 1] : Fin 2 → Fin S50000x3.rank)
  reducesTo_S1000000x3_S1000000_d1 : S1000000x3.ReducesTo [1] S1000000
  h_S_ : 0 < S_.numel
  shapeCasts_S64_S1x64 : S64.ShapeCasts S1x64
  shapeCasts_S1_S1x1 : S1.ShapeCasts S1x1
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  gather_S119_S1000000x1_S1000000_n_0_n_n_0_1_1_wf : GatherDims.WF S119 S1000000x1 S1000000 [] [0] [] [0] [] 1 ![1]
  scatter_S50000x1_S1000000x1_S1000000x1_1_0_0_1_wf : ScatterDims.WF S50000x1 S1000000x1 S1000000x1 [1] [0] [0] 1
  scatter_S50000x3_S1000000x1_S1000000x3_1_0_0_1_wf : ScatterDims.WF S50000x3 S1000000x1 S1000000x3 [1] [0] [0] 1
  gather_S50000x3_S1000000x1_S1000000x3_1_0_n_n_0_1_13_wf : GatherDims.WF S50000x3 S1000000x1 S1000000x3 [1] [0] [] [0] [] 1 ![1, 3]
  dot_S8000x128_S128x64_S8000x64_1_0_0_1_n_n_wf : DotDims.WF S8000x128 S128x64 S8000x64 [1] [0] [0] [1] [] []
  dot_S8000x64_S64x1_S8000x1_1_0_0_1_n_n_wf : DotDims.WF S8000x64 S64x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1000000x128.size a
  hwx0_0 : ∀ i : grid0.Coords, EltTy.bits .f32 = 32 ∨ (Rect.block (s := S1000000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S1000000x1.size a
  hwx0_1 : ∀ i : grid0.Coords, EltTy.bits .f32 = 32 ∨ (Rect.block (s := S1000000x1) S8000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x1.size a ≤ S1000000x1.size a
  hwx0_6 : ∀ i : grid0.Coords, EltTy.bits .f32 = 32 ∨ (Rect.block (s := S1000000x1) S8000x1.size (cc0_transform_6 i) (hinb0_6 i)).WholeWords (EltTy.packing .f32)

variable [Facts₀]

def gather_S119_S1000000x1_S1000000_n_0_n_n_0_1_1 : GatherDims S119 S1000000x1 S1000000 where
  offsetDims := []
  collapsedSliceDims := [0]
  operandBatchingDims := []
  startIndicesBatchingDims := []
  startIndexMap := [0]
  indexVectorDim := 1
  sliceSizes := ![1]
  wf := gather_S119_S1000000x1_S1000000_n_0_n_n_0_1_1_wf
def scatter_S50000x1_S1000000x1_S1000000x1_1_0_0_1 : ScatterDims S50000x1 S1000000x1 S1000000x1 where
  updateWindowDims := [1]
  insertedWindowDims := [0]
  scatterDimsToOperandDims := [0]
  indexVectorDim := 1
  wf := scatter_S50000x1_S1000000x1_S1000000x1_1_0_0_1_wf
def scatter_S50000x3_S1000000x1_S1000000x3_1_0_0_1 : ScatterDims S50000x3 S1000000x1 S1000000x3 where
  updateWindowDims := [1]
  insertedWindowDims := [0]
  scatterDimsToOperandDims := [0]
  indexVectorDim := 1
  wf := scatter_S50000x3_S1000000x1_S1000000x3_1_0_0_1_wf
def gather_S50000x3_S1000000x1_S1000000x3_1_0_n_n_0_1_13 : GatherDims S50000x3 S1000000x1 S1000000x3 where
  offsetDims := [1]
  collapsedSliceDims := [0]
  operandBatchingDims := []
  startIndicesBatchingDims := []
  startIndexMap := [0]
  indexVectorDim := 1
  sliceSizes := ![1, 3]
  wf := gather_S50000x3_S1000000x1_S1000000x3_1_0_n_n_0_1_13_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def dot_S8000x64_S64x1_S8000x1_1_0_0_1_n_n : DotDims S8000x64 S64x1 S8000x1 where
  lhsContracting := [1]
  rhsContracting := [0]
  lhsNonContracting := [0]
  rhsNonContracting := [1]
  lhsBatch := []
  rhsBatch := []
  wf := dot_S8000x64_S64x1_S8000x1_1_0_0_1_n_n_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S8000x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1000000x128 : Shape := ⟨2, ![1000000, 128]⟩
abbrev S1000000x3 : Shape := ⟨2, ![1000000, 3]⟩
abbrev S119 : Shape := ⟨1, ![119]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1000000 : Shape := ⟨1, ![1000000]⟩
abbrev S_ : Shape := ⟨0, ![]⟩
abbrev S1000000x1 : Shape := ⟨2, ![1000000, 1]⟩
abbrev S50000x3 : Shape := ⟨2, ![50000, 3]⟩
abbrev S50000x1 : Shape := ⟨2, ![50000, 1]⟩
abbrev S1000000x64 : Shape := ⟨2, ![1000000, 64]⟩
abbrev S1x64 : Shape := ⟨2, ![1, 64]⟩
abbrev S1x1 : Shape := ⟨2, ![1, 1]⟩

abbrev nBuf : Space → Nat
  | .hbm => 67
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000x3, .f32⟩
  | .hbm, ⟨2, _⟩ => ⟨S119, .f32⟩
  | .hbm, ⟨3, _⟩ => ⟨S128x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S1000000, .i32⟩
  | .hbm, ⟨8, _⟩ => ⟨S1000000, .i32⟩
  | .hbm, ⟨9, _⟩ => ⟨S_, .i32⟩
  | .hbm, ⟨10, _⟩ => ⟨S1000000, .i32⟩
  | .hbm, ⟨11, _⟩ => ⟨S1000000, .i1⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1000000x1, .i32⟩
  | .hbm, ⟨17, _⟩ => ⟨S1000000, .f32⟩
  | .hbm, ⟨18, _⟩ => ⟨S1000000x1, .f32⟩
  | .hbm, ⟨19, _⟩ => ⟨S1000000x3, .f32⟩
  | .hbm, ⟨20, _⟩ => ⟨S1000000x3, .f32⟩
  | .hbm, ⟨21, _⟩ => ⟨S_, .f32⟩
  | .hbm, ⟨22, _⟩ => ⟨S50000x3, .f32⟩
  | .hbm, ⟨23, _⟩ => ⟨S1000000x1, .i32⟩
  | .hbm, ⟨24, _⟩ => ⟨S50000x3, .f32⟩
  | .hbm, ⟨25, _⟩ => ⟨S_, .f32⟩
  | .hbm, ⟨26, _⟩ => ⟨S50000x1, .f32⟩
  | .hbm, ⟨27, _⟩ => ⟨S1000000x1, .i32⟩
  | .hbm, ⟨28, _⟩ => ⟨S50000x1, .f32⟩
  | .hbm, ⟨29, _⟩ => ⟨S50000x3, .f32⟩
  | .hbm, ⟨30, _⟩ => ⟨S50000x3, .f32⟩
  | .hbm, ⟨31, _⟩ => ⟨S_, .i32⟩
  | .hbm, ⟨32, _⟩ => ⟨S1000000, .i32⟩
  | .hbm, ⟨33, _⟩ => ⟨S1000000, .i1⟩
  | .hbm, ⟨34, _⟩ => ⟨S_, .i32⟩
  | .hbm, ⟨35, _⟩ => ⟨S1000000, .i32⟩
  | .hbm, ⟨36, _⟩ => ⟨S1000000, .i32⟩
  | .hbm, ⟨37, _⟩ => ⟨S1000000, .i32⟩
  | .hbm, ⟨38, _⟩ => ⟨S1000000x1, .i32⟩
  | .hbm, ⟨39, _⟩ => ⟨S1000000x3, .f32⟩
  | .hbm, ⟨40, _⟩ => ⟨S1000000x3, .f32⟩
  | .hbm, ⟨41, _⟩ => ⟨S1000000x64, .f32⟩
  | .hbm, ⟨42, _⟩ => ⟨S1x64, .f32⟩
  | .hbm, ⟨43, _⟩ => ⟨S1000000x64, .f32⟩
  | .hbm, ⟨44, _⟩ => ⟨S1000000x64, .f32⟩
  | .hbm, ⟨45, _⟩ => ⟨S1000000x64, .f32⟩
  | .hbm, ⟨46, _⟩ => ⟨S1000000x64, .f32⟩
  | .hbm, ⟨47, _⟩ => ⟨S_, .f32⟩
  | .hbm, ⟨48, _⟩ => ⟨S1000000x64, .f32⟩
  | .hbm, ⟨49, _⟩ => ⟨S1000000x64, .f32⟩
  | .hbm, ⟨50, _⟩ => ⟨S_, .f32⟩
  | .hbm, ⟨51, _⟩ => ⟨S1000000x64, .f32⟩
  | .hbm, ⟨52, _⟩ => ⟨S1000000x64, .f32⟩
  | .hbm, ⟨53, _⟩ => ⟨S1000000x64, .f32⟩
  | .hbm, ⟨54, _⟩ => ⟨S1000000x1, .f32⟩
  | .hbm, ⟨55, _⟩ => ⟨S1x1, .f32⟩
  | .hbm, ⟨56, _⟩ => ⟨S1000000x1, .f32⟩
  | .hbm, ⟨57, _⟩ => ⟨S1000000x1, .f32⟩
  | .hbm, ⟨58, _⟩ => ⟨S1000000x3, .f32⟩
  | .hbm, ⟨59, _⟩ => ⟨S_, .f32⟩
  | .hbm, ⟨60, _⟩ => ⟨S1000000, .f32⟩
  | .hbm, ⟨61, _⟩ => ⟨S1000000x1, .f32⟩
  | .hbm, ⟨62, _⟩ => ⟨S1000000x1, .f32⟩
  | .hbm, ⟨63, _⟩ => ⟨S_, .f32⟩
  | .hbm, ⟨64, _⟩ => ⟨S50000x1, .f32⟩
  | .hbm, ⟨65, _⟩ => ⟨S1000000x1, .i32⟩
  | .hbm, ⟨66, _⟩ => ⟨S50000x1, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_4 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_5 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x3_0_1 : S1000000x1.BroadcastsInDim S1000000x3 (![0, 1] : Fin 2 → Fin S1000000x3.rank)
  bcast_S_S50000x3 : S_.BroadcastsInDim S50000x3 (![] : Fin 0 → Fin S50000x3.rank)
  bcast_S_S50000x1 : S_.BroadcastsInDim S50000x1 (![] : Fin 0 → Fin S50000x1.rank)
  bcast_S50000x1_S50000x3_0_1 : S50000x1.BroadcastsInDim S50000x3 (![0, 1] : Fin 2 → Fin S50000x3.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x3_S1000000_d1 : S1000000x3.ReducesTo [1] S1000000
  h_S_ : 0 < S_.numel
  gather_S119_S1000000x1_S1000000_n_0_n_n_0_1_1_wf : GatherDims.WF S119 S1000000x1 S1000000 [] [0] [] [0] [] 1 ![1]
  scatter_S50000x3_S1000000x1_S1000000x3_1_0_0_1_wf : ScatterDims.WF S50000x3 S1000000x1 S1000000x3 [1] [0] [0] 1
  scatter_S50000x1_S1000000x1_S1000000x1_1_0_0_1_wf : ScatterDims.WF S50000x1 S1000000x1 S1000000x1 [1] [0] [0] 1
  gather_S50000x3_S1000000x1_S1000000x3_1_0_n_n_0_1_13_wf : GatherDims.WF S50000x3 S1000000x1 S1000000x3 [1] [0] [] [0] [] 1 ![1, 3]
  dot_S1000000x128_S128x64_S1000000x64_1_0_0_1_n_n_wf : DotDims.WF S1000000x128 S128x64 S1000000x64 [1] [0] [0] [1] [] []
  dot_S1000000x64_S64x1_S1000000x1_1_0_0_1_n_n_wf : DotDims.WF S1000000x64 S64x1 S1000000x1 [1] [0] [0] [1] [] []

variable [Facts₀]

def gather_S119_S1000000x1_S1000000_n_0_n_n_0_1_1 : GatherDims S119 S1000000x1 S1000000 where
  offsetDims := []
  collapsedSliceDims := [0]
  operandBatchingDims := []
  startIndicesBatchingDims := []
  startIndexMap := [0]
  indexVectorDim := 1
  sliceSizes := ![1]
  wf := gather_S119_S1000000x1_S1000000_n_0_n_n_0_1_1_wf
def scatter_S50000x3_S1000000x1_S1000000x3_1_0_0_1 : ScatterDims S50000x3 S1000000x1 S1000000x3 where
  updateWindowDims := [1]
  insertedWindowDims := [0]
  scatterDimsToOperandDims := [0]
  indexVectorDim := 1
  wf := scatter_S50000x3_S1000000x1_S1000000x3_1_0_0_1_wf
def scatter_S50000x1_S1000000x1_S1000000x1_1_0_0_1 : ScatterDims S50000x1 S1000000x1 S1000000x1 where
  updateWindowDims := [1]
  insertedWindowDims := [0]
  scatterDimsToOperandDims := [0]
  indexVectorDim := 1
  wf := scatter_S50000x1_S1000000x1_S1000000x1_1_0_0_1_wf
def gather_S50000x3_S1000000x1_S1000000x3_1_0_n_n_0_1_13 : GatherDims S50000x3 S1000000x1 S1000000x3 where
  offsetDims := [1]
  collapsedSliceDims := [0]
  operandBatchingDims := []
  startIndicesBatchingDims := []
  startIndexMap := [0]
  indexVectorDim := 1
  sliceSizes := ![1, 3]
  wf := gather_S50000x3_S1000000x1_S1000000x3_1_0_n_n_0_1_13_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf

class Facts : Prop extends Facts₀ where

variable [Facts]
-- ==== Proof.Mlp.lean ====
/-
  The per-atom network both programs apply to a row of scalar features: an affine map to 64 hidden
  units, the activation x ↦ x · σ(x) with σ(x) = 1 / (1 + e^(−x)), and an affine map to one number.
  Stated over the extended reals, as a function of ONE row and of the weights.
-/
import Idealize.ShloMosaic.PureOps.Ideal
import Idealize.ShloMosaic.Lib.ValueIdx

noncomputable section

open scoped BigOperators

namespace Cert.Mlp

open Idealize.ShloMosaic

/-- Hidden unit `k` of a row `x`: with `h = Σ_l x_l · w1_{l,k} + b1_k`, the value `h · σ(h)`. -/
def hidden (x : Fin 128 → EReal) (w1 : Fin 128 → Fin 64 → EReal) (b1 : Fin 64 → EReal) (k : Fin 64) : EReal :=
  ((∑ l : Fin 128, x l * w1 l k) + b1 k) * Ideal.logistic ((∑ l : Fin 128, x l * w1 l k) + b1 k)

/-- The network's output for a row: `Σ_k hidden_k · w2_k + b2`. -/
def row (x : Fin 128 → EReal) (w1 : Fin 128 → Fin 64 → EReal) (b1 : Fin 64 → EReal) (w2 : Fin 64 → EReal) (b2 : EReal) : EReal :=
  (∑ k : Fin 64, hidden x w1 b1 k * w2 k) + b2

end Cert.Mlp

end
-- ==== Proof.KerPay.lean ====
/-
  The kernel body's stored value read at one element. For row `r` of a block the body computes the
  per-atom network of that row of the feature block (two matrix products into zero accumulators, which at
  the extended reals are plain sums; the narrowing to bf16 before each product is the identity there)
  and multiplies it by the row's entry of the spatial column.
-/
import proofs.«121970_j77781857730660_2_alg».proof.Proof.Gen.KernelIdeal.Skeleton
import proofs.«121970_j77781857730660_2_alg».proof.Proof.Mlp
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

theorem mm1_l0 (i : S8000x64.Idx) (q : dot_S8000x128_S128x64_S8000x64_1_0_0_1_n_n.contr.Idx) : (dot_S8000x128_S128x64_S8000x64_1_0_0_1_n_n.lhsIdx i q 0).val = (i 0).val := by
  unfold DotDims.lhsIdx
  rw [dif_neg (show ¬(0 : Fin S8000x128.rank) ∈ dot_S8000x128_S128x64_S8000x64_1_0_0_1_n_n.lhsBatch by decide), dif_pos (show (0 : Fin S8000x128.rank) ∈ dot_S8000x128_S128x64_S8000x64_1_0_0_1_n_n.lhsNonContracting by decide)]
  rfl
theorem mm1_l1 (i : S8000x64.Idx) (q : dot_S8000x128_S128x64_S8000x64_1_0_0_1_n_n.contr.Idx) : (dot_S8000x128_S128x64_S8000x64_1_0_0_1_n_n.lhsIdx i q 1).val = (q ⟨0, by decide⟩).val :=
  dot_S8000x128_S128x64_S8000x64_1_0_0_1_n_n.lhsIdx_val_of_single rfl i q
theorem mm1_r0 (i : S8000x64.Idx) (q : dot_S8000x128_S128x64_S8000x64_1_0_0_1_n_n.contr.Idx) : (dot_S8000x128_S128x64_S8000x64_1_0_0_1_n_n.rhsIdx i q 0).val = (q ⟨0, by decide⟩).val :=
  dot_S8000x128_S128x64_S8000x64_1_0_0_1_n_n.rhsIdx_val_of_single rfl i q
theorem mm1_r1 (i : S8000x64.Idx) (q : dot_S8000x128_S128x64_S8000x64_1_0_0_1_n_n.contr.Idx) : (dot_S8000x128_S128x64_S8000x64_1_0_0_1_n_n.rhsIdx i q 1).val = (i 1).val := by
  unfold DotDims.rhsIdx
  rw [dif_neg (show ¬(1 : Fin S128x64.rank) ∈ dot_S8000x128_S128x64_S8000x64_1_0_0_1_n_n.rhsBatch by decide), dif_pos (show (1 : Fin S128x64.rank) ∈ dot_S8000x128_S128x64_S8000x64_1_0_0_1_n_n.rhsNonContracting by decide)]
  rfl

/-- The first matrix product at `(r, k)`: the sum over the 128 features of row `r` times column `k`. -/
theorem mm1_apply (a : FVec Ideal S8000x128 .bf16) (b : FVec Ideal S128x64 .bf16) (r : Fin 8000) (k : Fin 64) :
    matmul (F := Ideal) dot_S8000x128_S128x64_S8000x64_1_0_0_1_n_n none a b (constant S8000x64 .f32 0x00000000#32) (ix2 r k)
      = ∑ l : Fin 128, a (ix2 r l) * b (ix2 l k) := by
  refine (Ideal.matmul_constant_zero_apply dot_S8000x128_S128x64_S8000x64_1_0_0_1_n_n none a b (ix2 r k)).trans ?_
  rw [← Equiv.sum_comp (contrEquiv1 dot_S8000x128_S128x64_S8000x64_1_0_0_1_n_n 128 rfl rfl).symm]
  refine Finset.sum_congr rfl fun l _ => ?_
  have hl := contrEquiv1_symm_val dot_S8000x128_S128x64_S8000x64_1_0_0_1_n_n 128 rfl rfl l
  have el : dot_S8000x128_S128x64_S8000x64_1_0_0_1_n_n.lhsIdx (ix2 r k) ((contrEquiv1 dot_S8000x128_S128x64_S8000x64_1_0_0_1_n_n 128 rfl rfl).symm l) = ix2 r l :=
    funext fun a => Fin.ext (by
      match a with
      | ⟨0, _⟩ => exact mm1_l0 _ _
      | ⟨1, _⟩ => exact (mm1_l1 _ _).trans hl)
  have er : dot_S8000x128_S128x64_S8000x64_1_0_0_1_n_n.rhsIdx (ix2 r k) ((contrEquiv1 dot_S8000x128_S128x64_S8000x64_1_0_0_1_n_n 128 rfl rfl).symm l) = ix2 l k :=
    funext fun a => Fin.ext (by
      match a with
      | ⟨0, _⟩ => exact (mm1_r0 _ _).trans hl
      | ⟨1, _⟩ => exact mm1_r1 _ _)
  rw [el, er]

theorem mm2_l0 (i : S8000x1.Idx) (q : dot_S8000x64_S64x1_S8000x1_1_0_0_1_n_n.contr.Idx) : (dot_S8000x64_S64x1_S8000x1_1_0_0_1_n_n.lhsIdx i q 0).val = (i 0).val := by
  unfold DotDims.lhsIdx
  rw [dif_neg (show ¬(0 : Fin S8000x64.rank) ∈ dot_S8000x64_S64x1_S8000x1_1_0_0_1_n_n.lhsBatch by decide), dif_pos (show (0 : Fin S8000x64.rank) ∈ dot_S8000x64_S64x1_S8000x1_1_0_0_1_n_n.lhsNonContracting by decide)]
  rfl
theorem mm2_l1 (i : S8000x1.Idx) (q : dot_S8000x64_S64x1_S8000x1_1_0_0_1_n_n.contr.Idx) : (dot_S8000x64_S64x1_S8000x1_1_0_0_1_n_n.lhsIdx i q 1).val = (q ⟨0, by decide⟩).val :=
  dot_S8000x64_S64x1_S8000x1_1_0_0_1_n_n.lhsIdx_val_of_single rfl i q
theorem mm2_r0 (i : S8000x1.Idx) (q : dot_S8000x64_S64x1_S8000x1_1_0_0_1_n_n.contr.Idx) : (dot_S8000x64_S64x1_S8000x1_1_0_0_1_n_n.rhsIdx i q 0).val = (q ⟨0, by decide⟩).val :=
  dot_S8000x64_S64x1_S8000x1_1_0_0_1_n_n.rhsIdx_val_of_single rfl i q
theorem mm2_r1 (i : S8000x1.Idx) (q : dot_S8000x64_S64x1_S8000x1_1_0_0_1_n_n.contr.Idx) : (dot_S8000x64_S64x1_S8000x1_1_0_0_1_n_n.rhsIdx i q 1).val = (i 1).val := by
  unfold DotDims.rhsIdx
  rw [dif_neg (show ¬(1 : Fin S64x1.rank) ∈ dot_S8000x64_S64x1_S8000x1_1_0_0_1_n_n.rhsBatch by decide), dif_pos (show (1 : Fin S64x1.rank) ∈ dot_S8000x64_S64x1_S8000x1_1_0_0_1_n_n.rhsNonContracting by decide)]
  rfl

/-- The second matrix product at `(r, 0)`: the sum over the 64 hidden units. -/
theorem mm2_apply (a : FVec Ideal S8000x64 .bf16) (b : FVec Ideal S64x1 .bf16) (r : Fin 8000) (k : Fin 1) :
    matmul (F := Ideal) dot_S8000x64_S64x1_S8000x1_1_0_0_1_n_n none a b (constant S8000x1 .f32 0x00000000#32) (ix2 r k)
      = ∑ l : Fin 64, a (ix2 r l) * b (ix2 l k) := by
  refine (Ideal.matmul_constant_zero_apply dot_S8000x64_S64x1_S8000x1_1_0_0_1_n_n none a b (ix2 r k)).trans ?_
  rw [← Equiv.sum_comp (contrEquiv1 dot_S8000x64_S64x1_S8000x1_1_0_0_1_n_n 64 rfl rfl).symm]
  refine Finset.sum_congr rfl fun l _ => ?_
  have hl := contrEquiv1_symm_val dot_S8000x64_S64x1_S8000x1_1_0_0_1_n_n 64 rfl rfl l
  have el : dot_S8000x64_S64x1_S8000x1_1_0_0_1_n_n.lhsIdx (ix2 r k) ((contrEquiv1 dot_S8000x64_S64x1_S8000x1_1_0_0_1_n_n 64 rfl rfl).symm l) = ix2 r l :=
    funext fun a => Fin.ext (by
      match a with
      | ⟨0, _⟩ => exact mm2_l0 _ _
      | ⟨1, _⟩ => exact (mm2_l1 _ _).trans hl)
  have er : dot_S8000x64_S64x1_S8000x1_1_0_0_1_n_n.rhsIdx (ix2 r k) ((contrEquiv1 dot_S8000x64_S64x1_S8000x1_1_0_0_1_n_n 64 rfl rfl).symm l) = ix2 l k :=
    funext fun a => Fin.ext (by
      match a with
      | ⟨0, _⟩ => exact (mm2_r0 _ _).trans hl
      | ⟨1, _⟩ => exact mm2_r1 _ _)
  rw [el, er]

/-- The bias row broadcast over the block's rows, at `(r, k)`, is the bias at `(0, k)`. -/
theorem bias1_apply (v : FVec Ideal S1x64 .f32) (r : Fin 8000) (k : Fin 64) :
    broadcastTo S8000x64 v broadcasts_S1x64_S8000x64 (ix2 r k) = v (ix2 0 k) := by
  exact broadcastTo_apply v broadcasts_S1x64_S8000x64 (ix2 r k) (ix2 0 k) (fun a => by
    match a with
    | ⟨0, _⟩ => rfl
    | ⟨1, _⟩ => rfl)

/-- The output bias broadcast over the block's rows, at `(r, 0)`, is the bias at `(0, 0)`. -/
theorem bias2_apply (v : FVec Ideal S1x1 .f32) (r : Fin 8000) (z : Fin 1) :
    broadcastTo S8000x1 v broadcasts_S1x1_S8000x1 (ix2 r z) = v (ix2 0 0) := by
  exact broadcastTo_apply v broadcasts_S1x1_S8000x1 (ix2 r z) (ix2 0 0) (fun a => by
    match a with
    | ⟨0, _⟩ => rfl
    | ⟨1, _⟩ => rfl)

/-- THE BODY'S STORED VALUE at row `r`: the network of row `r` of the feature block, times the row's spatial entry. -/
theorem pay_apply (v0 : FVec Ideal S8000x128 .f32) (v2 : FVec Ideal S128x64 .f32) (v5 : FVec Ideal S1x64 .f32)
    (v12 : FVec Ideal S64x1 .f32) (v15 : FVec Ideal S1x1 .f32) (v19 : FVec Ideal S8000x1 .f32) (r : Fin 8000) (z : Fin 1) :
    k0_pay1 (F := Ideal) v0 v2 v5 v12 v15 v19 (ix2 r z)
      = Cert.Mlp.row (fun l => v0 (ix2 r l)) (fun l k => v2 (ix2 l k)) (fun k => v5 (ix2 0 k)) (fun k => v12 (ix2 k 0)) (v15 (ix2 0 0))
        * v19 (ix2 r z) := by
  obtain rfl : z = 0 := Subsingleton.elim _ _
  unfold k0_pay1
  simp only [shapeCast_self]
  show (matmul (F := Ideal) dot_S8000x64_S64x1_S8000x1_1_0_0_1_n_n none _ _ (constant S8000x1 .f32 0x00000000#32) (ix2 r 0)
      + broadcastTo S8000x1 v15 broadcasts_S1x1_S8000x1 (ix2 r 0)) * v19 (ix2 r 0) = _
  rw [bias2_apply, mm2_apply]
  unfold Cert.Mlp.row
  refine congrArg (fun s => (s + v15 (ix2 0 0)) * v19 (ix2 r 0)) (Finset.sum_congr rfl fun k _ => ?_)
  show ((matmul (F := Ideal) dot_S8000x128_S128x64_S8000x64_1_0_0_1_n_n none _ _ (constant S8000x64 .f32 0x00000000#32) (ix2 r k)
      + broadcastTo S8000x64 v5 broadcasts_S1x64_S8000x64 (ix2 r k))
      * Ideal.logistic (matmul (F := Ideal) dot_S8000x128_S128x64_S8000x64_1_0_0_1_n_n none _ _ (constant S8000x64 .f32 0x00000000#32) (ix2 r k)
      + broadcastTo S8000x64 v5 broadcasts_S1x64_S8000x64 (ix2 r k))) * v12 (ix2 k 0) = _
  rw [bias1_apply, mm1_apply]
  rfl

end Cert.KernelIdeal.Body

end
-- ==== Proof.KerArr.lean ====
/-
  The kernel's output array after the region, as ONE function of the arrays the region finds.
  Grid point `t` of 125 works on rows `8000·t … 8000·t + 7999`: it reads that block of the features and of
  the spatial column, and the weights whole, and writes that block of the output. Row `r` of what it writes
  is the per-atom network of row `8000·t + r` of the features times that row's spatial entry, so the 125 blocks,
  which tile the `[1000000, 1]` output, are the blocks of one function of the row. The block reads are stated
  for arbitrary arrays; the arrays the region finds are substituted at the end.
-/
import proofs.«121970_j77781857730660_2_alg».proof.Proof.Gen.KernelIdeal.Frame
import proofs.«121970_j77781857730660_2_alg».proof.Proof.KerPay
import Idealize.ShloMosaic.Lib.Pipeline.Value
import Idealize.ShloMosaic.Lib.ValueIdx

noncomputable section

open scoped BigOperators

namespace Cert.KernelIdeal.Arr

open Cert.KernelIdeal Cert.KernelIdeal.Gen Idealize.ShloMosaic Idealize.ShloMosaic.TcCoe Idealize.SL.Sem
open Idealize.ShloMosaic.ValueIdx

theorem hz : (![0, 0] : Fin 2 → Nat) = fun _ => 0 := funext fun a => by fin_cases a <;> rfl

/-- The network of a row of the features times the row's spatial entry, as a function of the output's index:
    `W0` the features, `W2`, `W3`, `W4`, `W5` the two weight matrices and bias rows, `W1` the spatial column. -/
def rowFn (W0 : S1000000x128.Idx → EReal) (W2 : S128x64.Idx → EReal) (W3 : S1x64.Idx → EReal) (W4 : S64x1.Idx → EReal)
    (W5 : S1x1.Idx → EReal) (W1 : S1000000x1.Idx → EReal) : S1000000x1.Idx → EReal :=
  fun i => Cert.Mlp.row (fun l => W0 (ix2 ⟨(i 0).val, idx2_lt0 i⟩ l)) (fun l k => W2 (ix2 l k)) (fun k => W3 (ix2 0 k))
    (fun k => W4 (ix2 k 0)) (W5 (ix2 0 0)) * W1 i

/-- The printed index maps over the grid: the feature, spatial and output windows move one block of rows per point,
    the weight windows stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The row of the output that row `r` of point `t`'s block is. -/
abbrev outIdx (t : Fin cfg0.N) (r : Fin 8000) (z : Fin 1) : S1000000x1.Idx := ((cfg0.win 6).blk t).view.emb (ix2 r z)

section Blocks

variable (A0 : (⟨S1000000x128, .f32⟩ : BufTy).Contents (Elt Ideal)) (A1 : (⟨S1000000x1, .f32⟩ : BufTy).Contents (Elt Ideal))
  (A2 : (⟨S128x64, .f32⟩ : BufTy).Contents (Elt Ideal)) (A3 : (⟨S1x64, .f32⟩ : BufTy).Contents (Elt Ideal))
  (A4 : (⟨S64x1, .f32⟩ : BufTy).Contents (Elt Ideal)) (A5 : (⟨S1x1, .f32⟩ : BufTy).Contents (Elt Ideal))

/-- Row `r` of point `t`'s feature block is row `8000·t + r` of the features. -/
theorem read0 (t : Fin cfg0.N) (r : Fin 8000) (z : Fin 1) (l : Fin 128) :
    ((cfg0.win 0).blk t).view.read (Elt Ideal) A0 (ix2 r l) = A0 (ix2 ⟨((outIdx t r z) 0).val, idx2_lt0 _⟩ l) := by
  obtain ⟨e00, e01, -, -, -, -, -, -, -, -, -, -, e60, e61⟩ := idx_facts t
  show A0 (((cfg0.win 0).blk t).view.emb (ix2 r l)) = A0 _
  refine congrArg A0 (funext fun a => Fin.ext ?_)
  match a with
  | ⟨0, _⟩ => show win0_0.index t (0 : Fin 2) * 8000 + 1 * r.val = win0_6.index t (0 : Fin 2) * 8000 + 1 * r.val; omega
  | ⟨1, _⟩ => show win0_0.index t (1 : Fin 2) * 128 + 1 * l.val = l.val; omega

/-- Row `r` of point `t`'s spatial block is the spatial column at the output's row. -/
theorem read1 (t : Fin cfg0.N) (r : Fin 8000) (z : Fin 1) :
    ((cfg0.win 1).blk t).view.read (Elt Ideal) A1 (ix2 r z) = A1 (outIdx t r z) := by
  obtain ⟨-, -, e10, e11, -, -, -, -, -, -, -, -, e60, e61⟩ := idx_facts t
  show A1 (((cfg0.win 1).blk t).view.emb (ix2 r z)) = A1 _
  refine congrArg A1 (funext fun a => Fin.ext ?_)
  match a with
  | ⟨0, _⟩ => show win0_1.index t (0 : Fin 2) * 8000 + 1 * r.val = win0_6.index t (0 : Fin 2) * 8000 + 1 * r.val; omega
  | ⟨1, _⟩ => show win0_1.index t (1 : Fin 2) * 1 + 1 * z.val = win0_6.index t (1 : Fin 2) * 1 + 1 * z.val; omega

/-- Every point's block of the first weight matrix is the whole matrix. -/
theorem read2 (t : Fin cfg0.N) (l : Fin 128) (k : Fin 64) :
    ((cfg0.win 2).blk t).view.read (Elt Ideal) A2 (ix2 l k) = A2 (ix2 l k) := by
  obtain ⟨-, -, -, -, e20, e21, -, -, -, -, -, -, -, -⟩ := idx_facts t
  show A2 (((cfg0.win 2).blk t).view.emb (ix2 l k)) = A2 _
  refine congrArg A2 (funext fun a => Fin.ext ?_)
  match a with
  | ⟨0, _⟩ => show win0_2.index t (0 : Fin 2) * 128 + 1 * l.val = l.val; omega
  | ⟨1, _⟩ => show win0_2.index t (1 : Fin 2) * 64 + 1 * k.val = k.val; omega

/-- Every point's block of the first bias row is the whole row. -/
theorem read3 (t : Fin cfg0.N) (u : Fin 1) (k : Fin 64) :
    ((cfg0.win 3).blk t).view.read (Elt Ideal) A3 (ix2 u k) = A3 (ix2 u k) := by
  obtain ⟨-, -, -, -, -, -, e30, e31, -, -, -, -, -, -⟩ := idx_facts t
  show A3 (((cfg0.win 3).blk t).view.emb (ix2 u k)) = A3 _
  refine congrArg A3 (funext fun a => Fin.ext ?_)
  match a with
  | ⟨0, _⟩ => show win0_3.index t (0 : Fin 2) * 1 + 1 * u.val = u.val; omega
  | ⟨1, _⟩ => show win0_3.index t (1 : Fin 2) * 64 + 1 * k.val = k.val; omega

/-- Every point's block of the second weight matrix is the whole matrix. -/
theorem read4 (t : Fin cfg0.N) (k : Fin 64) (u : Fin 1) :
    ((cfg0.win 4).blk t).view.read (Elt Ideal) A4 (ix2 k u) = A4 (ix2 k u) := by
  obtain ⟨-, -, -, -, -, -, -, -, e40, e41, -, -, -, -⟩ := idx_facts t
  show A4 (((cfg0.win 4).blk t).view.emb (ix2 k u)) = A4 _
  refine congrArg A4 (funext fun a => Fin.ext ?_)
  match a with
  | ⟨0, _⟩ => show win0_4.index t (0 : Fin 2) * 64 + 1 * k.val = k.val; omega
  | ⟨1, _⟩ => show win0_4.index t (1 : Fin 2) * 1 + 1 * u.val = u.val; omega

/-- Every point's block of the output bias is the whole one-entry array. -/
theorem read5 (t : Fin cfg0.N) (u v : Fin 1) :
    ((cfg0.win 5).blk t).view.read (Elt Ideal) A5 (ix2 u v) = A5 (ix2 u v) := by
  obtain ⟨-, -, -, -, -, -, -, -, -, -, e50, e51, -, -⟩ := idx_facts t
  show A5 (((cfg0.win 5).blk t).view.emb (ix2 u v)) = A5 _
  refine congrArg A5 (funext fun a => Fin.ext ?_)
  match a with
  | ⟨0, _⟩ => show win0_5.index t (0 : Fin 2) * 1 + 1 * u.val = u.val; omega
  | ⟨1, _⟩ => show win0_5.index t (1 : Fin 2) * 1 + 1 * v.val = v.val; omega

/-- Equal rows, weights and spatial entries give equal products of the network's output and the spatial entry. -/
theorem row_mul_congr (a a' : Fin 128 → EReal) (b b' : Fin 128 → Fin 64 → EReal) (c1 c1' : Fin 64 → EReal) (d d' : Fin 64 → EReal)
    (e e' s s' : EReal) (ha : a = a') (hb : b = b') (hc : c1 = c1') (hd : d = d') (he : e = e') (hs : s = s') :
    Cert.Mlp.row a b c1 d e * s = Cert.Mlp.row a' b' c1' d' e' * s' := by
  subst ha hb hc hd he hs; rfl

/-- What the body leaves at point `t`, from the blocks of arbitrary arrays, is block `t` of `rowFn` of those arrays. -/
theorem body_block (t : Fin cfg0.N) :
    (cfg0.win 6).cut (grid0.coords t)
        (out0_6 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5))
      = ((cfg0.win 6).blk t).view.read (Elt Ideal) (rowFn A0 A2 A3 A4 A5 A1) := by
  unfold out0_6
  rw [View.canon_unit_zero hz]
  simp only [View.ld_unit_zero (S := S8000x128) hz, View.ld_unit_zero (S := S128x64) hz, View.ld_unit_zero (S := S1x64) hz,
    View.ld_unit_zero (S := S64x1) hz, View.ld_unit_zero (S := S1x1) hz, View.ld_unit_zero (S := S8000x1) hz]
  funext j
  obtain ⟨r, z, rfl⟩ : ∃ (r : Fin 8000) (z : Fin 1), j = ix2 r z := ⟨j 0, j 1, eq_ix2 j⟩
  show k0_pay1 (F := Ideal) (((cfg0.win 0).blk t).view.read (Elt Ideal) A0) (((cfg0.win 2).blk t).view.read (Elt Ideal) A2)
        (((cfg0.win 3).blk t).view.read (Elt Ideal) A3) (((cfg0.win 4).blk t).view.read (Elt Ideal) A4)
        (((cfg0.win 5).blk t).view.read (Elt Ideal) A5) (((cfg0.win 1).blk t).view.read (Elt Ideal) A1) (ix2 r z)
      = rowFn A0 A2 A3 A4 A5 A1 (outIdx t r z)
  refine (Body.pay_apply _ _ _ _ _ _ r z).trans ?_
  exact row_mul_congr _ _ _ _ _ _ _ _ _ _ _ _ (funext fun l => read0 A0 t r z l) (funext fun l => funext fun k => read2 A2 t l k)
    (funext fun k => read3 A3 t 0 k) (funext fun k => read4 A4 t k 0) (read5 A5 t 0 0) (read1 A1 t r z)

end Blocks

variable (m : (ℓ : Loc nD τ sig) → Buf (Elt Ideal) ℓ)

/-- That function of the arrays as the region finds them. -/
def G (c : Dev nD) : S1000000x1.Idx → EReal :=
  rowFn (V m c (Pipeline.arrRef spec0 0)) (V m c (Pipeline.arrRef spec0 2)) (V m c (Pipeline.arrRef spec0 3))
    (V m c (Pipeline.arrRef spec0 4)) (V m c (Pipeline.arrRef spec0 5)) (V m c (Pipeline.arrRef spec0 1))

/-- WHAT POINT `t` WRITES BACK is block `t` of that function. -/
theorem flushed_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after0_6]
  unfold iblk G
  exact body_block (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5)) t

/-- An index of the output is in point `t`'s block iff each coordinate is in the block's range on its axis. -/
theorem mem_blk (t : Fin cfg0.N) (i : S1000000x1.Idx) :
    i ∈ ((cfg0.win 6).blk t).view.set ↔ ∀ a : Fin 2, win0_6.index t a * S8000x1.size a ≤ (i a).val ∧ (i a).val < win0_6.index t a * S8000x1.size a + S8000x1.size a := by
  show i ∈ ((View.whole main_v34).slice (win0_6.rect t)).set ↔ _
  rw [View.set_slice_whole, Rect.mem_set_unit]
  exact Iff.rfl

/-- The 125 blocks of 8000 rows tile the output: row `n` is in the block of point `n / 8000`. -/
theorem cover (i : S1000000x1.Idx) : ∃ t : Fin cfg0.N, (cfg0.win 6).flush t = true ∧ i ∈ ((cfg0.win 6).blk t).view.set := by
  have hN : cfg0.N = 125 := N_0
  have hi0 : (i 0).val < 1000000 := (i 0).isLt
  have hi1 : (i 1).val < 1 := (i 1).isLt
  refine ⟨⟨(i 0).val / 8000, by omega⟩, flush0_6 _, ?_⟩
  rw [mem_blk]
  obtain ⟨-, -, -, -, -, -, -, -, -, -, -, -, e60, e61⟩ := idx_facts ⟨(i 0).val / 8000, by omega⟩
  intro a
  match a with
  | ⟨0, _⟩ =>
    show win0_6.index ⟨(i 0).val / 8000, _⟩ (0 : Fin 2) * 8000 ≤ (i 0).val ∧ (i 0).val < win0_6.index ⟨(i 0).val / 8000, _⟩ (0 : Fin 2) * 8000 + 8000
    rw [e60]; show (i 0).val / 8000 * 8000 ≤ (i 0).val ∧ (i 0).val < (i 0).val / 8000 * 8000 + 8000; omega
  | ⟨1, _⟩ =>
    show win0_6.index ⟨(i 0).val / 8000, _⟩ (1 : Fin 2) * 1 ≤ (i 1).val ∧ (i 1).val < win0_6.index ⟨(i 0).val / 8000, _⟩ (1 : Fin 2) * 1 + 1
    rw [e61]; omega

/-- THE OUTPUT ARRAY after the region is that function of the arrays the region finds. -/
theorem final (c : Dev nD) : (dats m 0 c).arrAt 6 cfg0.N = G m c :=
  (dats m 0 c).arrAt_eq_of_cover 6 (G m c) (fun t _ => flushed_eq m c t) (cover)

end Cert.KernelIdeal.Arr

end
-- ==== Proof.CenDef.lean ====
/-
  The kernel's table of centroids as a function of the arguments: per segment, the quotient of the
  mass-weighted sum of positions by the summed mass where that mass is positive, and zero elsewhere.
  (The reference's table is the plain quotient.) Stated over the reference's stage functions, which the
  kernel's own host operations repeat term for term.
-/
import proofs.«121970_j77781857730660_2_alg».proof.Proof.Gen.ReferenceIdeal.Read

noncomputable section

namespace Cert.Centroid

open Cert.ReferenceIdeal Cert.ReferenceIdeal.Read Cert.ReferenceIdeal.Facts₀ Idealize.ShloMosaic

/-- The guarded table: `num / den` where `den > 0`, else `0`. -/
def cenK (x1 : FVec Ideal S1000000x3 .f32) (x2 : FVec Ideal S119 .f32) (x7 x8 : IVec S1000000 32) : FVec Ideal S50000x3 .f32 :=
  select (broadcastInDim S50000x3 ![0, 1] bcast_S50000x1_S50000x3_0_1
      (cmpf (F := Ideal) (s := S50000x1) (φ := .f32) .ogt (val_main_v15 (F := Ideal) x2 x7 x8 : FVec Ideal S50000x1 .f32) (val_main_v13 (F := Ideal) : FVec Ideal S50000x1 .f32)))
    (val_main_v17 (F := Ideal) x1 x2 x7 x8 : FVec Ideal S50000x3 .f32)
    (broadcastInDim S50000x3 ![] bcast_S_S50000x3 (constant (F := Ideal) S_ .f32 0x00000000#32))

end Cert.Centroid

end
-- ==== Proof.Spatial.lean ====
import Idealize.ShloMosaic.PureOps.Ideal.Laws
import Idealize.ShloMosaic.Lib.ValueIdx
import Idealize.ShloMosaic.Lib.Pipeline.Value

/-!
# The squared distance of an atom to its gathered centroid

For positions `x1 : [N, 3]`, a table of centroids `C : [B, 3]` and start indices `g : [N, 1]`, the column
`spatial[p, 0] = 0 + ∑_{k < 3} (x1[p, k] - cen[p, k])²` where `cen = gather C g`. The column at row `p` reads the
gathered table only at the three indices `(p, k)`, so two tables whose gathers agree there give the same entry.
-/

noncomputable section

namespace Cert.Spatial

open Idealize.ShloMosaic Idealize.ShloMosaic.ValueIdx

open scoped BigOperators

abbrev SN3 : Shape := ⟨2, ![1000000, 3]⟩
abbrev SB3 : Shape := ⟨2, ![50000, 3]⟩
abbrev SN1 : Shape := ⟨2, ![1000000, 1]⟩
abbrev SN : Shape := ⟨1, ![1000000]⟩
abbrev S0 : Shape := ⟨0, ![]⟩

/-- The column of squared distances: gather the centroids, subtract from the positions, square, sum over the
    coordinate axis from the literal zero, and lay the `[N]` vector out as an `[N, 1]` column. -/
def spatialOf (gd : GatherDims SB3 SN1 SN3) (C : FVec Ideal SB3 .f32) (x1 : FVec Ideal SN3 .f32) (g : IVec SN1 32)
    (hb : SN.BroadcastsInDim SN1 (![0] : Fin 1 → Fin SN1.rank)) (hr : SN3.ReducesTo [1] SN) (hS : 0 < S0.numel) :
    FVec Ideal SN1 .f32 :=
  broadcastInDim SN1 ![0] hb (Host.reduceAdd (mulf (subf x1 (Host.gather gd C g)) (subf x1 (Host.gather gd C g))) (constant (F := Ideal) S0 .f32 0x00000000#32) hr hS)

/-- The column at row `p` is the initial value plus the sum over the three coordinates of the squared differences,
    for any gathered array `G` in place of the gather. -/
theorem column_apply (G : FVec Ideal SN3 .f32) (x1 : FVec Ideal SN3 .f32)
    (hb : SN.BroadcastsInDim SN1 (![0] : Fin 1 → Fin SN1.rank)) (hr : SN3.ReducesTo [1] SN) (hS : 0 < S0.numel)
    (p : Fin 1000000) :
    broadcastInDim SN1 ![0] hb (Host.reduceAdd (mulf (subf x1 G) (subf x1 G)) (constant (F := Ideal) S0 .f32 0x00000000#32) hr hS) (ix2 p 0)
      = (constant (F := Ideal) S0 .f32 0x00000000#32) (Shape.Idx.first hS)
        + ∑ k : Fin 3, (x1 (ix2 p k) - G (ix2 p k)) * (x1 (ix2 p k) - G (ix2 p k)) := by
  generalize (constant (F := Ideal) S0 .f32 0x00000000#32) = z
  generalize hy : mulf (subf x1 G) (subf x1 G) = y
  rw [broadcastInDim_apply _ hb _ (ix2 p 0) (ix1 p) (fun a => match a with
    | ⟨0, _⟩ => by show p.val = if (1000000 : Nat) = 1 then 0 else p.val; rw [if_neg (by decide)])]
  simp only [Host.reduceAdd, Ideal.hostReduceAdd_def]
  rw [Ideal.hostReduceAdd_single hr (by decide)]
  refine congrArg (_ + ·) (Finset.sum_congr rfl fun k _ => ?_)
  subst hy
  exact congrArg (fun i => (x1 i - G i) * (x1 i - G i))
    (funext fun a => Fin.ext (by match a with | ⟨0, _⟩ => rfl | ⟨1, _⟩ => rfl))

/-- Two centroid tables whose gathers agree at the three indices `(p, k)` give the same squared distance at row `p`. -/
theorem spatialOf_congr (gd : GatherDims SB3 SN1 SN3) (C C' : FVec Ideal SB3 .f32) (x1 : FVec Ideal SN3 .f32) (g : IVec SN1 32)
    (hb : SN.BroadcastsInDim SN1 (![0] : Fin 1 → Fin SN1.rank)) (hr : SN3.ReducesTo [1] SN) (hS : 0 < S0.numel)
    (p : Fin 1000000) (h : ∀ k : Fin 3, Host.gather gd C g (ix2 p k) = Host.gather gd C' g (ix2 p k)) :
    spatialOf gd C x1 g hb hr hS (ix2 p 0) = spatialOf gd C' x1 g hb hr hS (ix2 p 0) := by
  unfold spatialOf
  rw [column_apply, column_apply]
  refine congrArg (_ + ·) (Finset.sum_congr rfl fun k _ => ?_)
  rw [h k]

end Cert.Spatial

end
-- ==== Proof.KerHost.lean ====
import proofs.«121970_j77781857730660_2_alg».proof.Proof.Gen.KernelIdeal.Frame
import proofs.«121970_j77781857730660_2_alg».proof.Proof.CenDef
import proofs.«121970_j77781857730660_2_alg».proof.Proof.Spatial
import Idealize.ShloMosaic.Lib.StableHlo.Run
import Idealize.ShloMosaic.Lib.Pipeline.Value
import Idealize.ShloMosaic.Lib.ValueIdx

/-!
# The kernel program's host operations

Around its one region the kernel program computes, on the host: before the region, per segment the summed mass and the
mass-weighted sum of positions, their quotient guarded by "summed mass positive" (zero elsewhere), the gather of that
table at each atom's segment, the squared distance of each atom to its gathered centroid as an `[N, 1]` column, and the
two biases reshaped to rank 2; after the region, the scatter-add of the region's output column by segment id onto zeros.
This file states each of these as a function of the launched arguments and identifies it with the buffer the region
finds (resp. the program's result). The stages up to the guard are, operation for operation, the reference's.
-/

set_option maxRecDepth 16384

noncomputable section

namespace Cert.KernelIdeal.Host

open Cert.KernelIdeal Cert.KernelIdeal.Gen Idealize.ShloMosaic Idealize.ShloMosaic.TcCoe Idealize.SL.Sem
  Idealize.ShloMosaic.StableHlo Idealize.ShloMosaic.ValueIdx

variable (m : (ℓ : Loc nD τ sig) → Buf (Elt Ideal) ℓ)

/-! ## The kernel's host stages as functions of the arguments -/

/-- The per-atom mass as an `[N, 1]` column: the mass table gathered at the species (a negative species index
    wraps by the table's extent 119). -/
def kMass (x2 : FVec Ideal S119 .f32) (x7 : IVec S1000000 32) : FVec Ideal S1000000x1 .f32 :=
  broadcastInDim S1000000x1 ![0] bcast_S1000000_S1000000x1_0
    (Host.gather gather_S119_S1000000x1_S1000000_n_0_n_n_0_1_1 x2
      (broadcastInDim S1000000x1 ![0] bcast_S1000000_S1000000x1_0
        (select (cmpi .slt x7 (broadcastInDim S1000000 ![] bcast_S_S1000000 (constantI S_ 32 0#32)))
          (addi x7 (broadcastInDim S1000000 ![] bcast_S_S1000000 (constantI S_ 32 119#32))) x7)))

/-- The summed mass of each segment: the masses scattered by segment id onto zeros. -/
def kDen (x2 : FVec Ideal S119 .f32) (x7 x8 : IVec S1000000 32) : FVec Ideal S50000x1 .f32 :=
  Host.scatterAdd (F := Ideal) scatter_S50000x1_S1000000x1_S1000000x1_1_0_0_1
    (broadcastInDim S50000x1 ![] bcast_S_S50000x1 (constant (F := Ideal) S_ .f32 0x00000000#32))
    (broadcastInDim S1000000x1 ![0] bcast_S1000000_S1000000x1_0 x8) (kMass x2 x7)

/-- The mass-weighted sum of positions of each segment. -/
def kNum (x1 : FVec Ideal S1000000x3 .f32) (x2 : FVec Ideal S119 .f32) (x7 x8 : IVec S1000000 32) : FVec Ideal S50000x3 .f32 :=
  Host.scatterAdd (F := Ideal) scatter_S50000x3_S1000000x1_S1000000x3_1_0_0_1
    (broadcastInDim S50000x3 ![] bcast_S_S50000x3 (constant (F := Ideal) S_ .f32 0x00000000#32))
    (broadcastInDim S1000000x1 ![0] bcast_S1000000_S1000000x1_0 x8)
    (mulf (broadcastInDim S1000000x3 ![0, 1] bcast_S1000000x1_S1000000x3_0_1 (kMass x2 x7)) x1)

/-- The kernel's table of centroids: the quotient where the summed mass is positive, zero elsewhere. -/
def kCen (x1 : FVec Ideal S1000000x3 .f32) (x2 : FVec Ideal S119 .f32) (x7 x8 : IVec S1000000 32) : FVec Ideal S50000x3 .f32 :=
  select
    (broadcastInDim S50000x3 ![0, 1] bcast_S50000x1_S50000x3_0_1
      (cmpf (F := Ideal) .ogt (kDen x2 x7 x8) (broadcastInDim S50000x1 ![] bcast_S_S50000x1 (constant (F := Ideal) S_ .f32 0x00000000#32))))
    (Host.divf (kNum x1 x2 x7 x8) (broadcastInDim S50000x3 ![0, 1] bcast_S50000x1_S50000x3_0_1 (kDen x2 x7 x8)))
    (broadcastInDim S50000x3 ![] bcast_S_S50000x3 (constant (F := Ideal) S_ .f32 0x00000000#32))

/-- The segment ids as an `[N, 1]` column of start indices (a negative id wraps by the extent 50000). -/
def kIds (x8 : IVec S1000000 32) : IVec S1000000x1 32 :=
  broadcastInDim S1000000x1 ![0] bcast_S1000000_S1000000x1_0
    (select (cmpi .slt x8 (broadcastInDim S1000000 ![] bcast_S_S1000000 (constantI S_ 32 0#32)))
      (addi x8 (broadcastInDim S1000000 ![] bcast_S_S1000000 (constantI S_ 32 50000#32))) x8)

/-- The kernel's column of squared distances to the gathered centroid, in the kernel's own operations. -/
def kSpatial (x1 : FVec Ideal S1000000x3 .f32) (x2 : FVec Ideal S119 .f32) (x7 x8 : IVec S1000000 32) : FVec Ideal S1000000x1 .f32 :=
  broadcastInDim S1000000x1 ![0] bcast_S1000000_S1000000x1_0
    (Host.reduceAdd
      (mulf (subf x1 (Host.gather gather_S50000x3_S1000000x1_S1000000x3_1_0_n_n_0_1_13 (kCen x1 x2 x7 x8) (kIds x8)))
        (subf x1 (Host.gather gather_S50000x3_S1000000x1_S1000000x3_1_0_n_n_0_1_13 (kCen x1 x2 x7 x8) (kIds x8))))
      (constant (F := Ideal) S_ .f32 0x00000000#32) reducesTo_S1000000x3_S1000000_d1 h_S_)

/-! ## The same stages in the reference's words

The two programs state the same operations, each with dimension records and side conditions under its own names; the
records have equal fields and the side conditions are propositions, so each stage is the reference's by unfolding. -/

theorem kMass_eq (x2 : FVec Ideal S119 .f32) (x7 : IVec S1000000 32) :
    kMass x2 x7 = Cert.ReferenceIdeal.Read.val_main_v7 (F := Ideal) x2 x7 := rfl

theorem kIds_eq (x8 : IVec S1000000 32) : kIds x8 = Cert.ReferenceIdeal.Read.val_main_v23 (F := Ideal) x8 := rfl

theorem kDen_eq (x2 : FVec Ideal S119 .f32) (x7 x8 : IVec S1000000 32) :
    kDen x2 x7 x8 = Cert.ReferenceIdeal.Read.val_main_v15 (F := Ideal) x2 x7 x8 := by
  unfold kDen Cert.ReferenceIdeal.Read.val_main_v15
  rw [kMass_eq]
  rfl

theorem kNum_eq (x1 : FVec Ideal S1000000x3 .f32) (x2 : FVec Ideal S119 .f32) (x7 x8 : IVec S1000000 32) :
    kNum x1 x2 x7 x8 = Cert.ReferenceIdeal.Read.val_main_v12 (F := Ideal) x1 x2 x7 x8 := by
  unfold kNum Cert.ReferenceIdeal.Read.val_main_v12 Cert.ReferenceIdeal.Read.val_main_v9 Cert.ReferenceIdeal.Read.val_main_v8
  rw [kMass_eq]
  rfl

theorem kCen_eq (x1 : FVec Ideal S1000000x3 .f32) (x2 : FVec Ideal S119 .f32) (x7 x8 : IVec S1000000 32) :
    kCen x1 x2 x7 x8 = Cert.Centroid.cenK x1 x2 x7 x8 := by
  unfold kCen Cert.Centroid.cenK Cert.ReferenceIdeal.Read.val_main_v17 Cert.ReferenceIdeal.Read.val_main_v16
  rw [kDen_eq, kNum_eq]
  rfl

theorem kSpatial_eq (x1 : FVec Ideal S1000000x3 .f32) (x2 : FVec Ideal S119 .f32) (x7 x8 : IVec S1000000 32) :
    kSpatial x1 x2 x7 x8
      = Cert.Spatial.spatialOf gather_S50000x3_S1000000x1_S1000000x3_1_0_n_n_0_1_13 (Cert.Centroid.cenK x1 x2 x7 x8) x1
          (Cert.ReferenceIdeal.Read.val_main_v23 (F := Ideal) x8) bcast_S1000000_S1000000x1_0 reducesTo_S1000000x3_S1000000_d1 h_S_ := by
  unfold kSpatial Cert.Spatial.spatialOf
  rw [kCen_eq, kIds_eq]

/-! ## What the region finds in the buffers the host operations before it wrote

The 46 host operations before the region run in three stretches (the second is the call of the guarded quotient's
`where`). Each stretch is read on its own, over any contents `W` it starts from, and the three are chained. -/

set_option maxHeartbeats 1000000 in
/-- The `[1, 64]` bias window's array is the `[64]` bias argument reshaped. -/
theorem V_b1_term (c : Dev nD) : (V m c main_v32 : S1x64.Idx → EReal)
    = shapeCast S1x64 (m ((c : Thread nD τ).loc main_arg4)) shapeCasts_S64_S1x64 := by
  dsimp only [Gen.V, Gen.V0]
  simp only [Gen.hostOps0, Gen.hostOps0_1, Gen.hostOps0_2, List.flatten_cons, List.flatten_nil, List.append_nil,
    List.cons_append, List.nil_append]
  after_results
  rfl

/-- Its entry `(0, k)` is the bias at `k`: the two indices have the same row-major position. -/
theorem V_b1 (c : Dev nD) (u : Fin 1) (k : Fin 64) :
    V m c main_v32 (ix2 u k) = m ((c : Thread nD τ).loc main_arg4) (ix1 k) := by
  refine (congrFun (V_b1_term m c) (ix2 u k)).trans ?_
  exact shapeCast_apply _ _ _ _ (by
    show (S64.rowMajor (ix1 k)).val = (S1x64.rowMajor (ix2 u k)).val
    rw [Shape.rowMajor_val_one, Shape.rowMajor_val_two]
    show k.val = u.val * 64 + k.val
    have := u.isLt; omega)

set_option maxHeartbeats 1000000 in
/-- The `[1, 1]` bias window's array is the `[1]` bias argument reshaped. -/
theorem V_b2_term (c : Dev nD) : (V m c main_v33 : S1x1.Idx → EReal)
    = shapeCast S1x1 (m ((c : Thread nD τ).loc main_arg6)) shapeCasts_S1_S1x1 := by
  dsimp only [Gen.V, Gen.V0]
  simp only [Gen.hostOps0, Gen.hostOps0_1, Gen.hostOps0_2, List.flatten_cons, List.flatten_nil, List.append_nil,
    List.cons_append, List.nil_append]
  after_results
  rfl

/-- Its one entry is the bias's one entry. -/
theorem V_b2 (c : Dev nD) (u v : Fin 1) :
    V m c main_v33 (ix2 u v) = m ((c : Thread nD τ).loc main_arg6) (ix1 0) := by
  refine (congrFun (V_b2_term m c) (ix2 u v)).trans ?_
  exact shapeCast_apply _ _ _ _ (by
    show (S1.rowMajor (ix1 (0 : Fin 1))).val = (S1x1.rowMajor (ix2 u v)).val
    rw [Shape.rowMajor_val_one, Shape.rowMajor_val_two]
    show 0 = u.val * 1 + v.val
    have := u.isLt; have := v.isLt; omega)

/-- The contents after the three stretches, one after the other. -/
theorem V0_split (c : Dev nD) : V0 m c
    = StableHlo.after hostOps0_2 (StableHlo.after hostOps0_1 (StableHlo.after hostOps0 (fun b => m (c, b)))) := by
  show StableHlo.after (List.flatten [hostOps0, hostOps0_1, hostOps0_2]) (fun b => m (c, b)) = _
  rw [List.flatten_cons, List.flatten_cons, List.flatten_cons, List.flatten_nil, List.append_nil,
    StableHlo.after_append, StableHlo.after_append]

section Stretches

variable (W : Valuation τ sig (Elt Ideal))

set_option maxHeartbeats 1000000 in
/-- First stretch: the comparison "summed mass positive". -/
theorem s0_v17 (c : Dev nD) :
    (StableHlo.after hostOps0 (fun b => m (c, b)) (Proc.devRef .tc main_v17) : S50000x1.Idx → BitVec 1)
      = cmpf (F := Ideal) .ogt
          (kDen (m ((c : Thread nD τ).loc main_arg2)) (m ((c : Thread nD τ).loc main_arg7)) (m ((c : Thread nD τ).loc main_arg8)))
          (broadcastInDim S50000x1 ![] bcast_S_S50000x1 (constant (F := Ideal) S_ .f32 0x00000000#32)) := by
  after_results
  rfl

set_option maxHeartbeats 1000000 in
/-- First stretch: the plain quotient. -/
theorem s0_v19 (c : Dev nD) :
    (StableHlo.after hostOps0 (fun b => m (c, b)) (Proc.devRef .tc main_v19) : S50000x3.Idx → EReal)
      = Host.divf
          (kNum (m ((c : Thread nD τ).loc main_arg1)) (m ((c : Thread nD τ).loc main_arg2)) (m ((c : Thread nD τ).loc main_arg7)) (m ((c : Thread nD τ).loc main_arg8)))
          (broadcastInDim S50000x3 ![0, 1] bcast_S50000x1_S50000x3_0_1
            (kDen (m ((c : Thread nD τ).loc main_arg2)) (m ((c : Thread nD τ).loc main_arg7)) (m ((c : Thread nD τ).loc main_arg8)))) := by
  after_results
  rfl

set_option maxHeartbeats 1000000 in
/-- First stretch: the literal zero the guard falls back to. -/
theorem s0_cst3 (c : Dev nD) :
    (StableHlo.after hostOps0 (fun b => m (c, b)) (Proc.devRef .tc main_cst_3) : S_.Idx → EReal)
      = constant (F := Ideal) S_ .f32 0x00000000#32 := by
  after_results

set_option maxHeartbeats 1000000 in
/-- First stretch: the positions are not written. -/
theorem s0_arg1 (c : Dev nD) :
    StableHlo.after hostOps0 (fun b => m (c, b)) (Proc.devRef .tc main_arg1) = m ((c : Thread nD τ).loc main_arg1) := by
  after_results

set_option maxHeartbeats 1000000 in
/-- First stretch: the segment ids are not written. -/
theorem s0_arg8 (c : Dev nD) :
    StableHlo.after hostOps0 (fun b => m (c, b)) (Proc.devRef .tc main_arg8) = m ((c : Thread nD τ).loc main_arg8) := by
  after_results

set_option maxHeartbeats 1000000 in
/-- Second stretch: the guarded table, from the comparison, the quotient and the zero. -/
theorem s1_v20 :
    (StableHlo.after hostOps0_1 W (Proc.devRef .tc main_v20) : S50000x3.Idx → EReal)
      = select (broadcastInDim S50000x3 ![0, 1] bcast_S50000x1_S50000x3_0_1 (W (Proc.devRef .tc main_v17)))
          (W (Proc.devRef .tc main_v19))
          (broadcastInDim S50000x3 ![] bcast_S_S50000x3 (W (Proc.devRef .tc main_cst_3))) := by
  after_results
  rfl

set_option maxHeartbeats 1000000 in
theorem s1_arg1 : StableHlo.after hostOps0_1 W (Proc.devRef .tc main_arg1) = W (Proc.devRef .tc main_arg1) := by
  after_results

set_option maxHeartbeats 1000000 in
theorem s1_arg8 : StableHlo.after hostOps0_1 W (Proc.devRef .tc main_arg8) = W (Proc.devRef .tc main_arg8) := by
  after_results

set_option maxHeartbeats 1000000 in
/-- Third stretch: the squared distances, from the table, the positions and the segment ids. -/
theorem s2_v31 :
    (StableHlo.after hostOps0_2 W (Proc.devRef .tc main_v31) : S1000000x1.Idx → EReal)
      = broadcastInDim S1000000x1 ![0] bcast_S1000000_S1000000x1_0
          (Host.reduceAdd
            (mulf
              (subf (W (Proc.devRef .tc main_arg1))
                (Host.gather gather_S50000x3_S1000000x1_S1000000x3_1_0_n_n_0_1_13 (W (Proc.devRef .tc main_v20))
                  (kIds (W (Proc.devRef .tc main_arg8)))))
              (subf (W (Proc.devRef .tc main_arg1))
                (Host.gather gather_S50000x3_S1000000x1_S1000000x3_1_0_n_n_0_1_13 (W (Proc.devRef .tc main_v20))
                  (kIds (W (Proc.devRef .tc main_arg8))))))
            (constant (F := Ideal) S_ .f32 0x00000000#32) reducesTo_S1000000x3_S1000000_d1 h_S_) := by
  after_results
  rfl

end Stretches

/-- The squared-distance window's array is the kernel's host stages applied to the arguments as launched. -/
theorem V_spatial_term (c : Dev nD) : (V m c main_v31 : S1000000x1.Idx → EReal)
    = kSpatial (m ((c : Thread nD τ).loc main_arg1)) (m ((c : Thread nD τ).loc main_arg2))
        (m ((c : Thread nD τ).loc main_arg7)) (m ((c : Thread nD τ).loc main_arg8)) := by
  show V0 m c (Proc.devRef .tc main_v31) = _
  rw [V0_split, s2_v31, s1_v20, s1_arg1, s1_arg8, s0_v17, s0_v19, s0_cst3, s0_arg1, s0_arg8]
  rfl

/-- The squared-distance window's array, in the reference's words: the squared distance to the kernel's guarded
    centroid table gathered at the segment ids. -/
theorem V_spatial (c : Dev nD) : (V m c main_v31 : S1000000x1.Idx → EReal)
    = Cert.Spatial.spatialOf gather_S50000x3_S1000000x1_S1000000x3_1_0_n_n_0_1_13
        (Cert.Centroid.cenK (m ((c : Thread nD τ).loc main_arg1)) (m ((c : Thread nD τ).loc main_arg2))
          (m ((c : Thread nD τ).loc main_arg7)) (m ((c : Thread nD τ).loc main_arg8)))
        (m ((c : Thread nD τ).loc main_arg1))
        (Cert.ReferenceIdeal.Read.val_main_v23 (F := Ideal) (m ((c : Thread nD τ).loc main_arg8)))
        bcast_S1000000_S1000000x1_0 reducesTo_S1000000x3_S1000000_d1 h_S_ :=
  (V_spatial_term m c).trans (kSpatial_eq _ _ _ _)

/-! ## The host operations after the region -/

set_option maxHeartbeats 1000000 in
/-- The program's result: the region's output column `G` scattered by segment id onto zeros. The tail reads two buffers
    of what the region leaves: the output window's array, which is `G`, and the segment ids, which no window stages
    and no host operation writes. -/
theorem tail_eq (c : Dev nD) (G : S1000000x1.Idx → EReal) (hfin : (dats m 0 c).arrAt 6 cfg0.N = G) :
    Pipeline.afterTail₀ cfgs (dats m) 0 (V0 m) [hostOps1] c main_v37
      = Host.scatterAdd (F := Ideal) scatter_S50000x1_S1000000x1_S1000000x1_1_0_0_1
          (broadcastInDim S50000x1 ![] bcast_S_S50000x1 (constant (F := Ideal) S_ .f32 0x00000000#32))
          (broadcastInDim S1000000x1 ![0] bcast_S1000000_S1000000x1_0 (m ((c : Thread nD τ).loc main_arg8))) G := by
  unfold Pipeline.afterTail₀
  show StableHlo.after hostOps1 _ (Proc.devRef .tc main_v37) = _
  after_results
  have e34 : Pipeline.withArrays (cfgs 0).spec c (V0 m c) (fun w => (dats m 0 c).arrAt w (cfgs 0).N)
      (Proc.devRef .tc main_v34) = G :=
    (Pipeline.withArrays_arr spec0 launch0.win.arr_inj c _ _ 6).trans hfin
  have e8 : Pipeline.withArrays (cfgs 0).spec c (V0 m c) (fun w => (dats m 0 c).arrAt w (cfgs 0).N)
      (Proc.devRef .tc main_arg8) = m ((c : Thread nD τ).loc main_arg8) :=
    (Pipeline.withArrays_of_ne _ c (V0 m c) _ main_arg8
      (by exact (by decide : ∀ w, Pipeline.arrRef spec0 w ≠ main_arg8))).trans (V_main_arg8 m c)
  rw [e34, e8]

end Cert.KernelIdeal.Host

end
-- ==== Proof.LibGatherRows.lean ====
/-
  A general lemma: the "row" gather read at an index.

  What `table[ids]` of a table `[B, C]` at an integer array `ids : [N]` lowers to: `stablehlo.gather` with
  offset_dims `[1]`, collapsed_slice_dims `[0]`, start_index_map `[0]`, slice_sizes `[1, C]` and index_vector_dim 1
  over the indices as `[N, 1]`. Result element `(n, c)` is the table's element `(r, c)` where the row `r` is the
  start index `ids[n, 0]` read as a signed integer and clamped into `[0, B − 1]`.
-/
import Idealize.ShloMosaic.Lib.ValueIdx

noncomputable section

namespace Cert.Lib.GatherRows

open Idealize.ShloMosaic Idealize.ShloMosaic.ValueIdx

variable {α : Type}

/-- The dimension numbers of a row gather: operand `[B, C]`, start indices `[N, 1]`, result `[N, C]`; the operand's
    axis 0 is collapsed and indexed, its axis 1 is copied whole (slice sizes `[1, C]`). The conditions `wf` are decided
    on a program's literal shapes. -/
abbrev rowsDims (B C N : Nat)
    (wf : GatherDims.WF ⟨2, ![B, C]⟩ ⟨2, ![N, 1]⟩ ⟨2, ![N, C]⟩ [1] [0] [] [0] [] 1 ![1, C]) :
    GatherDims ⟨2, ![B, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- The start-indices index `[n, 0]` of the result index `(n, c)`. -/
abbrev rowIdx {N C : Nat} (y : (⟨2, ![N, C]⟩ : Shape).Idx) : (⟨2, ![N, 1]⟩ : Shape).Idx :=
  fun a => match a with | ⟨0, _⟩ => ⟨(y 0).val, idx2_lt0 y⟩ | ⟨1, _⟩ => ⟨0, Nat.one_pos⟩

/-- The operand index `(r, c)` from a row number `r < B` and the column of the result index `y = (n, c)`. -/
abbrev rowAt {B C N : Nat} (r : Nat) (hr : r < B) (y : (⟨2, ![N, C]⟩ : Shape).Idx) : (⟨2, ![B, C]⟩ : Shape).Idx :=
  fun a => match a with | ⟨0, _⟩ => ⟨r, hr⟩ | ⟨1, _⟩ => ⟨(y 1).val, idx2_lt1 y⟩

/-- THE ROW GATHER READ AT `(n, c)`: the operand at row `ids[n, 0]`, read signed and clamped into `[0, B − 1]`,
    and column `c`. -/
theorem gather_rows_apply {B C N w : Nat} (hB : 0 < B)
    (wf : GatherDims.WF ⟨2, ![B, C]⟩ ⟨2, ![N, 1]⟩ ⟨2, ![N, C]⟩ [1] [0] [] [0] [] 1 ![1, C])
    (x : (⟨2, ![B, C]⟩ : Shape).Idx → α) (idx : IVec ⟨2, ![N, 1]⟩ w) (y : (⟨2, ![N, C]⟩ : Shape).Idx) :
    Host.gather (rowsDims B C N wf) x idx y
      = x (rowAt (min (idx (rowIdx y)).toInt.toNat (B - 1)) (by omega) y) := by
  unfold Host.gather
  congr 1
  funext a
  refine Fin.ext ?_
  match a with
  | ⟨0, _⟩ =>
    show (rowsDims B C N wf).start y idx 0 + (rowsDims B C N wf).batchCoord y 0 + (rowsDims B C N wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims B C N wf).startIndexMap from List.mem_singleton.mpr rfl)]
    have hsi : (rowsDims B C N wf).siIdx y ⟨List.idxOf (0 : Fin 2) (rowsDims B C N wf).startIndexMap,
        List.idxOf_lt_length_iff.2 (List.mem_singleton.mpr rfl)⟩ = rowIdx y := by
      funext b; refine Fin.ext ?_
      match b with
      | ⟨0, _⟩ => rfl
      | ⟨1, _⟩ => rfl
    rw [hsi]
    rfl
  | ⟨1, _⟩ =>
    show (rowsDims B C N wf).start y idx 1 + (rowsDims B C N wf).batchCoord y 1 + (rowsDims B C N wf).offCoord y 1 = (y 1).val
    rw [GatherDims.batchCoord_eq_zero _ _ _ List.not_mem_nil]
    have hs : (rowsDims B C N wf).start y idx 1 = 0 := by
      unfold GatherDims.start
      rw [dif_neg (show (1 : Fin 2) ∉ (rowsDims B C N wf).startIndexMap from
        (by decide : (1 : Fin 2) ∉ ([0] : List (Fin 2))))]
    have hk : (1 : Fin 2) ∈ (rowsDims B C N wf).sKept :=
      (GatherDims.mem_sKept _ _).mpr ⟨(by decide : (1 : Fin 2) ∉ ([0] : List (Fin 2))), List.not_mem_nil⟩
    rw [hs]
    unfold GatherDims.offCoord
    rw [dif_pos hk]
    simp only [Nat.zero_add, Nat.add_zero]
    rfl

/-- The row gather with the start index inside the table: no clamping, the row read is `ids[n, 0]` itself. -/
theorem gather_rows_apply_of_inBounds {B C N w : Nat}
    (wf : GatherDims.WF ⟨2, ![B, C]⟩ ⟨2, ![N, 1]⟩ ⟨2, ![N, C]⟩ [1] [0] [] [0] [] 1 ![1, C])
    (x : (⟨2, ![B, C]⟩ : Shape).Idx → α) (idx : IVec ⟨2, ![N, 1]⟩ w) (y : (⟨2, ![N, C]⟩ : Shape).Idx)
    (h0 : 0 ≤ (idx (rowIdx y)).toInt) (hlt : (idx (rowIdx y)).toInt < B) :
    Host.gather (rowsDims B C N wf) x idx y = x (rowAt (idx (rowIdx y)).toInt.toNat (by omega) y) := by
  rw [gather_rows_apply (by omega) wf x idx y]
  congr 1
  funext a
  refine Fin.ext ?_
  match a with
  | ⟨0, _⟩ =>
    show min (idx (rowIdx y)).toInt.toNat (B - 1) = (idx (rowIdx y)).toInt.toNat
    omega
  | ⟨1, _⟩ => rfl

end Cert.Lib.GatherRows

end
-- ==== Proof.LibScatterRows.lean ====
/-
  General lemmas: the "row" scatter's result index, and two facts about the accumulating scatter over the extended reals.

  What a segment sum `segment_sum(rows, ids, num_segments = B)` of rows `[N, C]` at an integer array `ids : [N]` lowers to:
  `stablehlo.scatter` with an `add` body, update_window_dims `[1]`, inserted_window_dims `[0]`,
  scatter_dims_to_operand_dims `[0]` and index_vector_dim 1 over the indices as `[N, 1]`. Update element `(n, c)` lands on
  the operand's element `(ids[n, 0], c)`, the index read as a signed integer and NOT clamped: when it is outside
  `[0, B)` the update is dropped.
-/
import Idealize.ShloMosaic.Lib.ValueIdx
import Idealize.ShloMosaic.PureOps.Contract

noncomputable section

open scoped BigOperators

namespace Cert.Lib.ScatterRows

open Idealize.ShloMosaic Idealize.ShloMosaic.ValueIdx

/-- The dimension numbers of a row scatter: operand `[B, C]`, scatter indices `[N, 1]`, updates `[N, C]`; the operand's
    axis 0 is indexed (an inserted window axis), the updates' axis 1 is the window and goes to the operand's axis 1.
    The conditions `wf` are decided on a program's literal shapes. -/
abbrev rowsScatter (B C N : Nat) (wf : ScatterDims.WF ⟨2, ![B, C]⟩ ⟨2, ![N, 1]⟩ ⟨2, ![N, C]⟩ [1] [0] [0] 1) :
    ScatterDims ⟨2, ![B, C]⟩ ⟨2, ![N, 1]⟩ ⟨2, ![N, C]⟩ where
  updateWindowDims := [1]
  insertedWindowDims := [0]
  scatterDimsToOperandDims := [0]
  indexVectorDim := 1
  wf := wf

/-- The scatter-indices index `[n, 0]` of the update index `(n, c)`. -/
abbrev rowIdx {N C : Nat} (j : (⟨2, ![N, C]⟩ : Shape).Idx) : (⟨2, ![N, 1]⟩ : Shape).Idx :=
  fun a => match a with | ⟨0, _⟩ => ⟨(j 0).val, idx2_lt0 j⟩ | ⟨1, _⟩ => ⟨0, Nat.one_pos⟩

section Rows
variable {B C N w : Nat} (wf : ScatterDims.WF ⟨2, ![B, C]⟩ ⟨2, ![N, 1]⟩ ⟨2, ![N, C]⟩ [1] [0] [0] 1)
  (j : (⟨2, ![N, C]⟩ : Shape).Idx) (idx : IVec ⟨2, ![N, 1]⟩ w)

/-- On the operand's axis 0 the window starts at the scatter index `ids[n, 0]`, read signed. -/
theorem start_zero : (rowsScatter B C N wf).start j idx 0 = (idx (rowIdx j)).toInt := by
  unfold ScatterDims.start
  rw [dif_pos (show (0 : Fin 2) ∈ (rowsScatter B C N wf).scatterDimsToOperandDims from List.mem_singleton.mpr rfl)]
  have hsi : (rowsScatter B C N wf).siIdx j ⟨List.idxOf (0 : Fin 2) (rowsScatter B C N wf).scatterDimsToOperandDims,
      List.idxOf_lt_length_iff.2 (List.mem_singleton.mpr rfl)⟩ = rowIdx j := by
    funext b; refine Fin.ext ?_
    match b with
    | ⟨0, _⟩ => rfl
    | ⟨1, _⟩ => rfl
  rw [hsi]

/-- On the operand's axis 1, which the scatter indices do not name, the window starts at 0. -/
theorem start_one : (rowsScatter B C N wf).start j idx 1 = 0 := by
  unfold ScatterDims.start
  rw [dif_neg (show (1 : Fin 2) ∉ (rowsScatter B C N wf).scatterDimsToOperandDims from
    (by decide : (1 : Fin 2) ∉ ([0] : List (Fin 2))))]

/-- The operand's axis 0 is an inserted window axis: its window coordinate is 0. -/
theorem window_zero : (rowsScatter B C N wf).window j 0 = 0 := by
  unfold ScatterDims.window
  rw [dif_neg (show (0 : Fin 2) ∉ (rowsScatter B C N wf).sKept from
    (by decide : (0 : Fin 2) ∉ (List.finRange 2).filter (· ∉ ([0] : List (Fin 2)))))]

/-- On the operand's axis 1 the window coordinate is the update's column. -/
theorem window_one : (rowsScatter B C N wf).window j 1 = (j 1).val := by
  unfold ScatterDims.window
  rw [dif_pos (show (1 : Fin 2) ∈ (rowsScatter B C N wf).sKept from
    (by decide : (1 : Fin 2) ∈ (List.finRange 2).filter (· ∉ ([0] : List (Fin 2)))))]
  rfl

/-- WHERE AN UPDATE OF THE ROW SCATTER LANDS: update `(n, c)` lands on operand element `i` exactly when the scatter
    index `ids[n, 0]`, read signed, is in `[0, B)`, is `i`'s row, and `c` is `i`'s column. -/
theorem resultIdx?_rows_iff (i : (⟨2, ![B, C]⟩ : Shape).Idx) :
    (rowsScatter B C N wf).resultIdx? j idx = some i ↔
      0 ≤ (idx (rowIdx j)).toInt ∧ (idx (rowIdx j)).toInt < B ∧ ((i 0).val : Int) = (idx (rowIdx j)).toInt
        ∧ (i 1).val = (j 1).val := by
  have hi0 : (i 0).val < B := idx2_lt0 i
  have hj1 : (j 1).val < C := idx2_lt1 j
  unfold ScatterDims.resultIdx?
  constructor
  · intro h
    split at h
    · rename_i hc
      have hi := Option.some.inj h
      have e0 : ((i 0).val : Int) = (idx (rowIdx j)).toInt := by
        have h0 := hc 0
        rw [start_zero, window_zero] at h0
        rw [← hi]
        show (((rowsScatter B C N wf).start j idx 0 + ((rowsScatter B C N wf).window j 0 : Nat)).toNat : Int) = _
        rw [start_zero, window_zero]
        omega
      have e1 : (i 1).val = (j 1).val := by
        rw [← hi]
        show ((rowsScatter B C N wf).start j idx 1 + ((rowsScatter B C N wf).window j 1 : Nat)).toNat = _
        rw [start_one, window_one]
        omega
      refine ⟨by omega, by omega, e0, e1⟩
    · exact absurd h (by simp)
  · rintro ⟨h0, hlt, e0, e1⟩
    have hc : ∀ a : Fin 2, 0 ≤ (rowsScatter B C N wf).start j idx a + ((rowsScatter B C N wf).window j a : Nat) ∧
        (rowsScatter B C N wf).start j idx a + ((rowsScatter B C N wf).window j a : Nat)
          < ((⟨2, ![B, C]⟩ : Shape).size a : Nat) := by
      intro a
      match a with
      | ⟨0, _⟩ =>
        show 0 ≤ (rowsScatter B C N wf).start j idx 0 + ((rowsScatter B C N wf).window j 0 : Nat) ∧
          (rowsScatter B C N wf).start j idx 0 + ((rowsScatter B C N wf).window j 0 : Nat) < (B : Int)
        rw [start_zero, window_zero]; omega
      | ⟨1, _⟩ =>
        show 0 ≤ (rowsScatter B C N wf).start j idx 1 + ((rowsScatter B C N wf).window j 1 : Nat) ∧
          (rowsScatter B C N wf).start j idx 1 + ((rowsScatter B C N wf).window j 1 : Nat) < (C : Int)
        rw [start_one, window_one]; omega
    rw [dif_pos hc]
    congr 1
    funext a
    refine Fin.ext ?_
    match a with
    | ⟨0, _⟩ =>
      show ((rowsScatter B C N wf).start j idx 0 + ((rowsScatter B C N wf).window j 0 : Nat)).toNat = (i 0).val
      rw [start_zero, window_zero]; omega
    | ⟨1, _⟩ =>
      show ((rowsScatter B C N wf).start j idx 1 + ((rowsScatter B C N wf).window j 1 : Nat)).toNat = (i 1).val
      rw [start_one, window_one]; omega

/-- An update `(n, c)` that is not dropped has its scatter index `ids[n, 0]`, read signed, in `[0, B)`, and lands on
    that row, at column `c`. -/
theorem resultIdx?_rows (i : (⟨2, ![B, C]⟩ : Shape).Idx) (h : (rowsScatter B C N wf).resultIdx? j idx = some i) :
    0 ≤ (idx (rowIdx j)).toInt ∧ (idx (rowIdx j)).toInt < B ∧ ((i 0).val : Int) = (idx (rowIdx j)).toInt
      ∧ (i 1).val = (j 1).val :=
  (resultIdx?_rows_iff wf j idx i).mp h

end Rows

/-! ## The accumulating scatter over the extended reals, for any dimension numbers -/

section Add
variable {s si u : Shape} {φ : FTy} {w : Nat} (d : ScatterDims s si u)

/-- The accumulating scatter at an index: the operand's element plus the sum of the updates landing on it. -/
theorem scatterAdd_apply (x : FVec Ideal s φ) (idx : IVec si w) (upd : FVec Ideal u φ) (i : s.Idx) :
    Host.scatterAdd (F := Ideal) d x idx upd i = Ideal.hostScatterAdd d x idx upd i := rfl

/-- The accumulating scatter reads only the updates that are not dropped: two update arrays that agree on every
    update index landing inside the operand give the same result. -/
theorem hostScatterAdd_congr (x : FVec Ideal s φ) (idx : IVec si w) (upd upd' : FVec Ideal u φ)
    (h : ∀ j, (∃ i, d.resultIdx? j idx = some i) → upd j = upd' j) :
    Host.scatterAdd (F := Ideal) d x idx upd = Host.scatterAdd (F := Ideal) d x idx upd' := by
  funext i
  rw [scatterAdd_apply, scatterAdd_apply]
  unfold Ideal.hostScatterAdd
  congr 1
  exact Finset.sum_congr rfl fun j hj => h j ⟨i, (Finset.mem_filter.mp hj).2⟩

/-- An element of the accumulating scatter is positive when the operand's element is nonnegative, every update landing
    on it is nonnegative, and one of them is positive. (The extended reals are an ordered additive monoid: one term of
    a sum of nonnegative terms is below the sum.) -/
theorem hostScatterAdd_pos' (x : FVec Ideal s φ) (idx : IVec si w) (upd : FVec Ideal u φ) (i : s.Idx)
    (hx : 0 ≤ x i) (hupd : ∀ j, d.resultIdx? j idx = some i → 0 ≤ upd j)
    (j₀ : u.Idx) (hj₀ : d.resultIdx? j₀ idx = some i) (hpos : 0 < upd j₀) :
    0 < Host.scatterAdd (F := Ideal) d x idx upd i := by
  rw [scatterAdd_apply]
  unfold Ideal.hostScatterAdd
  have hle : upd j₀ ≤ ∑ j ∈ Finset.univ.filter (fun j => d.resultIdx? j idx = some i), upd j :=
    Finset.single_le_sum (f := upd) (fun j hj => hupd j (Finset.mem_filter.mp hj).2)
      (Finset.mem_filter.mpr ⟨Finset.mem_univ _, hj₀⟩)
  exact lt_of_lt_of_le hpos (le_trans hle (le_add_of_nonneg_left hx))

/-- An element of the accumulating scatter is positive when the operand's element is nonnegative, every update is
    positive, and some update lands on it. -/
theorem hostScatterAdd_pos (x : FVec Ideal s φ) (idx : IVec si w) (upd : FVec Ideal u φ) (i : s.Idx)
    (hx : 0 ≤ x i) (hupd : ∀ j, 0 < upd j) (j₀ : u.Idx) (hj₀ : d.resultIdx? j₀ idx = some i) :
    0 < Host.scatterAdd (F := Ideal) d x idx upd i :=
  hostScatterAdd_pos' d x idx upd i hx (fun j _ => (hupd j).le) j₀ hj₀ (hupd j₀)

end Add

end Cert.Lib.ScatterRows

end
-- ==== Proof.Centroid.lean ====
/-
  The guarded centroid table read back per atom.

  The reference's centroid table is the quotient `num / den` of two segment sums; the guarded table is
  `where(den > 0, num / den, 0)`. Both are gathered back per atom at the atom's segment id. For an atom whose
  update a segment sum over the same ids keeps (its id is in `[0, 50000)`), the gather reads the row the atom's own
  mass was added to, so the summed mass of that row is positive (every mass is positive) and the guard is open:
  the two gathers agree at that atom.
-/
import proofs.«121970_j77781857730660_2_alg».proof.Proof.Gen.ReferenceIdeal.Read
import proofs.«121970_j77781857730660_2_alg».proof.Proof.CenDef
import proofs.«121970_j77781857730660_2_alg».proof.Proof.LibGatherRows
import proofs.«121970_j77781857730660_2_alg».proof.Proof.LibScatterRows
import Idealize.ShloMosaic.Lib.ValueIdx
import Idealize.ShloMosaic.Lib.Pipeline.Value
import Idealize.ShloMosaic.PureOps.Ideal.Laws

noncomputable section

namespace Cert.Centroid

open Cert.ReferenceIdeal Cert.ReferenceIdeal.Read Idealize.ShloMosaic Idealize.ShloMosaic.ValueIdx
open Cert.ReferenceIdeal.Facts₀ Cert.Lib

variable (x1 : FVec Ideal S1000000x3 .f32) (x2 : FVec Ideal S119 .f32) (x7 x8 : IVec S1000000 32)

/-! ## The two dimension-number records are the row records -/

/-- The mass scatter's dimension numbers are the row scatter's at `B = 50000`, `C = 1`, `N = 1000000`. -/
theorem scatter_eq_rows : scatter_S50000x1_S1000000x1_S1000000x1_1_0_0_1
    = ScatterRows.rowsScatter 50000 1 1000000 Facts₀.scatter_S50000x1_S1000000x1_S1000000x1_1_0_0_1_wf := rfl

/-- The centroid gather's dimension numbers are the row gather's at `B = 50000`, `C = 3`, `N = 1000000`. -/
theorem gather_eq_rows : gather_S50000x3_S1000000x1_S1000000x3_1_0_n_n_0_1_13
    = GatherRows.rowsDims 50000 3 1000000 Facts₀.gather_S50000x3_S1000000x1_S1000000x3_1_0_n_n_0_1_13_wf := rfl

/-! ## The segment id of an atom whose update is kept -/

/-- The ids column at `[p, 0]` is atom `p`'s id. -/
theorem ids_col (p : Fin 1000000) :
    val_main_v40 (F := Ideal) x8 (ScatterRows.rowIdx (ix2 p (0 : Fin 1))) = x8 (ix1 p) := by
  rw [val_main_v40_apply]
  exact congrArg x8 (funext fun a => Fin.ext (by match a with | ⟨0, _⟩ => rfl))

/-- An atom `p` whose update lands on element `i` has its id, read signed, in `[0, 50000)`; `i` is that row,
    column `0`. -/
theorem kept_id (p : Fin 1000000) (i : S50000x1.Idx)
    (hj : scatter_S50000x1_S1000000x1_S1000000x1_1_0_0_1.resultIdx? (ix2 p (0 : Fin 1)) (val_main_v40 (F := Ideal) x8) = some i) :
    0 ≤ (x8 (ix1 p)).toInt ∧ (x8 (ix1 p)).toInt < 50000 ∧ ((i 0).val : Int) = (x8 (ix1 p)).toInt ∧ (i 1).val = 0 := by
  have h := ScatterRows.resultIdx?_rows Facts₀.scatter_S50000x1_S1000000x1_S1000000x1_1_0_0_1_wf
    (ix2 p (0 : Fin 1)) (val_main_v40 (F := Ideal) x8) i hj
  rw [ids_col] at h
  obtain ⟨h0, hlt, e0, e1⟩ := h
  exact ⟨h0, by exact_mod_cast hlt, e0, e1⟩

/-! ## The gather's start index -/

/-- A nonnegative id is not wrapped: the gather's start index at `[p, 0]` is atom `p`'s id itself. -/
theorem start_col (p : Fin 1000000) (k : Fin 3) (h0 : 0 ≤ (x8 (ix1 p)).toInt) :
    val_main_v23 (F := Ideal) x8 (GatherRows.rowIdx (ix2 p k)) = x8 (ix1 p) := by
  have hi : idx_main_v23 (GatherRows.rowIdx (ix2 p k)) = ix1 p :=
    funext fun a => Fin.ext (by match a with | ⟨0, _⟩ => rfl)
  rw [val_main_v23_apply, hi, val_main_v22_apply, val_main_v19_apply, val_main_v18_apply, val_main_c_2_apply]
  have hs : (x8 (ix1 p)).slt 0#32 = false := by
    rw [BitVec.slt_eq_decide, BitVec.toInt_zero]
    exact decide_eq_false (by omega)
  show Scalar.select (BitVec.ofBool ((x8 (ix1 p)).slt 0#32)) _ _ = _
  rw [hs]
  exact select_zero _ _

/-! ## The row the gather reads -/

/-- With the id in `[0, 50000)`, the centroid gather of ANY table at `(p, k)` reads the table at row `id`,
    column `k`: the start index is the id itself and nothing is clamped. -/
theorem gather_row (T : S50000x3.Idx → EReal) (p : Fin 1000000) (k : Fin 3)
    (h0 : 0 ≤ (x8 (ix1 p)).toInt) (hlt : (x8 (ix1 p)).toInt < 50000) :
    Host.gather gather_S50000x3_S1000000x1_S1000000x3_1_0_n_n_0_1_13 T (val_main_v23 (F := Ideal) x8) (ix2 p k)
      = T (ix2 (⟨(x8 (ix1 p)).toInt.toNat, by omega⟩ : Fin 50000) k) := by
  have hst := start_col x8 p k h0
  rw [gather_eq_rows,
    GatherRows.gather_rows_apply_of_inBounds Facts₀.gather_S50000x3_S1000000x1_S1000000x3_1_0_n_n_0_1_13_wf T
      (val_main_v23 (F := Ideal) x8) (ix2 p k) (by rw [hst]; exact h0) (by rw [hst]; exact_mod_cast hlt)]
  refine congrArg T (funext fun a => Fin.ext ?_)
  match a with
  | ⟨0, _⟩ =>
    show (val_main_v23 (F := Ideal) x8 (GatherRows.rowIdx (ix2 p k))).toInt.toNat = (x8 (ix1 p)).toInt.toNat
    rw [hst]
  | ⟨1, _⟩ => rfl

/-! ## The summed mass of a row that keeps an update is positive -/

/-- Every per-atom mass is an entry of the mass table, hence positive. -/
theorem mass_pos (hpos : ∀ k : S119.Idx, (0 : EReal) < x2 k) (j : S1000000x1.Idx) :
    (0 : EReal) < val_main_v7 (F := Ideal) x2 x7 j := by
  rw [val_main_v7_apply]
  unfold val_main_v6 Host.gather
  exact hpos _

/-- The zero column is zero. -/
theorem zero_col (i : S50000x1.Idx) : val_main_v13 (F := Ideal) i = (0 : EReal) := by
  rw [val_main_v13_apply, val_main_cst_1_apply]
  exact Ideal.ofBits_zero_f32

/-- The summed mass of an element some atom's update lands on is positive. -/
theorem den_pos (hpos : ∀ k : S119.Idx, (0 : EReal) < x2 k) (p : Fin 1000000) (i : S50000x1.Idx)
    (hj : scatter_S50000x1_S1000000x1_S1000000x1_1_0_0_1.resultIdx? (ix2 p (0 : Fin 1)) (val_main_v40 (F := Ideal) x8) = some i) :
    (0 : EReal) < val_main_v15 (F := Ideal) x2 x7 x8 i := by
  unfold val_main_v15
  exact ScatterRows.hostScatterAdd_pos scatter_S50000x1_S1000000x1_S1000000x1_1_0_0_1 (val_main_v13 (F := Ideal))
    (val_main_v14 (F := Ideal) x8) (val_main_v7 (F := Ideal) x2 x7) i (le_of_eq (zero_col i).symm)
    (mass_pos x2 x7 hpos) (ix2 p (0 : Fin 1)) hj

/-! ## The guarded table where the summed mass is positive -/

/-- Where the summed mass of row `s` is positive the guard is open: the guarded table at `(s, k)` is the quotient. -/
theorem cenK_of_pos (i : S50000x3.Idx) (h : (0 : EReal) < val_main_v15 (F := Ideal) x2 x7 x8 (idx_main_v16 i)) :
    cenK x1 x2 x7 x8 i = val_main_v17 (F := Ideal) x1 x2 x7 x8 i := by
  unfold cenK
  rw [select_apply]
  have hb : broadcastInDim S50000x3 ![0, 1] bcast_S50000x1_S50000x3_0_1
      (cmpf (F := Ideal) (s := S50000x1) (φ := .f32) .ogt (val_main_v15 (F := Ideal) x2 x7 x8) (val_main_v13 (F := Ideal))) i
      = cmpf (F := Ideal) (s := S50000x1) (φ := .f32) .ogt (val_main_v15 (F := Ideal) x2 x7 x8) (val_main_v13 (F := Ideal)) (idx_main_v16 i) := by
    generalize cmpf (F := Ideal) (s := S50000x1) (φ := .f32) .ogt (val_main_v15 (F := Ideal) x2 x7 x8) (val_main_v13 (F := Ideal)) = y
    exact broadcastInDim_apply _ bcast_S50000x1_S50000x3_0_1 y i (idx_main_v16 i) (fun a => match a with
      | ⟨0, _⟩ => by show (i 0).val = if (50000 : Nat) = 1 then 0 else (i 0).val; rw [if_neg (by decide)]
      | ⟨1, _⟩ => by show 0 = if (1 : Nat) = 1 then 0 else (i 1).val; rw [if_pos rfl])
  rw [hb, cmpf_apply, Ideal.cmpf_def, zero_col]
  have hc : Ideal.cmp .ogt (val_main_v15 (F := Ideal) x2 x7 x8 (idx_main_v16 i)) (0 : EReal) = 1#1 := by
    show BitVec.ofBool (decide ((0 : EReal) < val_main_v15 (F := Ideal) x2 x7 x8 (idx_main_v16 i))) = 1#1
    rw [decide_eq_true h]
    rfl
  rw [hc]
  exact select_one _ _

/-! ## The two gathers agree at an atom whose update is kept -/

/-- AN ATOM WHOSE UPDATE IS KEPT READS THE SAME CENTROID FROM BOTH TABLES: its id is in range, so the gather reads the
    row its own mass was added to; that row's summed mass is positive, so the guarded table there is the quotient. -/
theorem gather_cen_eq (hpos : ∀ k : S119.Idx, (0 : EReal) < x2 k) (p : Fin 1000000) (i : S50000x1.Idx)
    (hj : scatter_S50000x1_S1000000x1_S1000000x1_1_0_0_1.resultIdx? (ix2 p (0 : Fin 1)) (val_main_v40 (F := Ideal) x8) = some i)
    (k : Fin 3) :
    Host.gather gather_S50000x3_S1000000x1_S1000000x3_1_0_n_n_0_1_13 (cenK x1 x2 x7 x8) (val_main_v23 (F := Ideal) x8) (ix2 p k)
      = Host.gather gather_S50000x3_S1000000x1_S1000000x3_1_0_n_n_0_1_13 (val_main_v17 (F := Ideal) x1 x2 x7 x8)
          (val_main_v23 (F := Ideal) x8) (ix2 p k) := by
  obtain ⟨h0, hlt, e0, e1⟩ := kept_id x8 p i hj
  rw [gather_row x8 (cenK x1 x2 x7 x8) p k h0 hlt, gather_row x8 (val_main_v17 (F := Ideal) x1 x2 x7 x8) p k h0 hlt]
  apply cenK_of_pos
  have hi : idx_main_v16 (ix2 (⟨(x8 (ix1 p)).toInt.toNat, by omega⟩ : Fin 50000) k) = i := by
    funext a
    refine Fin.ext ?_
    match a with
    | ⟨0, _⟩ =>
      show (x8 (ix1 p)).toInt.toNat = (i 0).val
      omega
    | ⟨1, _⟩ =>
      show 0 = (i 1).val
      omega
  rw [hi]
  exact den_pos x2 x7 x8 hpos p i hj

end Cert.Centroid

end
-- ==== Proof.RefMlp.lean ====
/-
  The reference's per-atom network read at one atom: its two host matrix products are sums over the
  contracted axis, its activation is spelt negate, exponential, add one, divide one by it, multiply — the
  function x ↦ x · σ(x) — and its biases are broadcast rows. At the extended reals this is the per-row
  network of `Cert.Mlp` applied to the atom's row of features.
-/
import proofs.«121970_j77781857730660_2_alg».proof.Proof.Gen.ReferenceIdeal.Read
import proofs.«121970_j77781857730660_2_alg».proof.Proof.Mlp
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-- The single-precision word of 1.0 denotes the real number one. -/
theorem ofBits_one : Ideal.ofBits .f32 0x3F800000#32 = (1 : EReal) := by
  simp [Ideal.ofBits, Ideal.ieee, -EReal.coe_mul]
  norm_num

/-- The activated hidden unit `k` of atom `p`. -/
theorem hidden_apply (x0 : (⟨S1000000x128, .f32⟩ : BufTy).Contents (Elt Ideal)) (x3 : (⟨S128x64, .f32⟩ : BufTy).Contents (Elt Ideal))
    (x4 : (⟨S64, .f32⟩ : BufTy).Contents (Elt Ideal)) (p : Fin 1000000) (k : Fin 64) :
    val_main_v30 (F := Ideal) x0 x3 x4 (ix2 p k)
      = Cert.Mlp.hidden (fun l => x0 (ix2 p l)) (fun l k => x3 (ix2 l k)) (fun k => x4 (ix1 k)) k := by
  have e1 : ∀ l : Fin 128, lidx_main_v26 (ix2 p k) l = ix2 p l := fun l => funext fun a => by
    match a with
    | ⟨0, _⟩ => rfl
    | ⟨1, _⟩ => rfl
  have e2 : ∀ l : Fin 128, ridx_main_v26 (ix2 p k) l = ix2 l k := fun l => funext fun a => by
    match a with
    | ⟨0, _⟩ => rfl
    | ⟨1, _⟩ => rfl
  have e3 : idx_main_v27 (idx_main_v28 (ix2 p k)) = ix1 k := funext fun a => by
    match a with
    | ⟨0, _⟩ => rfl
  have h29 : val_main_v29 (F := Ideal) x0 x3 x4 (ix2 p k) = (∑ l : Fin 128, x0 (ix2 p l) * x3 (ix2 l k)) + x4 (ix1 k) := by
    rw [val_main_v29_apply, val_main_v26_apply, val_main_v28_apply, val_main_v27_apply, e3]
    simp only [e1, e2]
    rfl
  rw [val_main_v30_apply, val_main_call0_v5_apply, val_main_call0_v4_apply, val_main_call0_cst_0_apply,
    val_main_call0_v3_apply, val_main_call0_v2_apply, val_main_call0_cst_apply, val_main_call0_v1_apply,
    val_main_call0_v0_apply, h29]
  unfold Cert.Mlp.hidden Ideal.logistic
  simp only [Ideal.ofBits_def, ofBits_one]
  rfl

/-- THE REFERENCE'S NETWORK OUTPUT for atom `p` is the per-row network of its feature row. -/
theorem mlp_apply (x0 : (⟨S1000000x128, .f32⟩ : BufTy).Contents (Elt Ideal)) (x3 : (⟨S128x64, .f32⟩ : BufTy).Contents (Elt Ideal))
    (x4 : (⟨S64, .f32⟩ : BufTy).Contents (Elt Ideal)) (x5 : (⟨S64x1, .f32⟩ : BufTy).Contents (Elt Ideal))
    (x6 : (⟨S1, .f32⟩ : BufTy).Contents (Elt Ideal)) (p : Fin 1000000) (z : Fin 1) :
    val_main_v34 (F := Ideal) x0 x3 x4 x5 x6 (ix2 p z)
      = Cert.Mlp.row (fun l => x0 (ix2 p l)) (fun l k => x3 (ix2 l k)) (fun k => x4 (ix1 k)) (fun k => x5 (ix2 k 0)) (x6 (ix1 0)) := by
  obtain rfl : z = 0 := Subsingleton.elim _ _
  have e1 : ∀ k : Fin 64, lidx_main_v31 (ix2 p 0) k = ix2 p k := fun k => funext fun a => by
    match a with
    | ⟨0, _⟩ => rfl
    | ⟨1, _⟩ => rfl
  have e2 : ∀ k : Fin 64, ridx_main_v31 (ix2 p 0) k = ix2 k 0 := fun k => funext fun a => by
    match a with
    | ⟨0, _⟩ => rfl
    | ⟨1, _⟩ => rfl
  have e3 : idx_main_v32 (idx_main_v33 (ix2 p (0 : Fin 1))) = ix1 0 := funext fun a => by
    match a with
    | ⟨0, _⟩ => rfl
  rw [val_main_v34_apply, val_main_v31_apply, val_main_v33_apply, val_main_v32_apply, e3]
  simp only [e1, e2, hidden_apply]
  rfl

end Cert.ReferenceIdeal.RefValue

end
-- ==== Proof.Bridge.lean ====
/-
  The law that joins the two programs. Both end in a segment sum over the segment ids; an update whose id
  is out of range is dropped by it, and the two programs' updates need only agree on the atoms it keeps.
  For such an atom `p` the id is in range, its segment contains `p`, so the segment's summed mass is at least
  `p`'s own mass, which is positive: the kernel's guard `den > 0` holds there and the kernel's centroid row is the
  reference's quotient. Hence the squared distances agree at `p`, and the network's output is the same function
  of `p`'s feature row in both programs.
-/
import proofs.«121970_j77781857730660_2_alg».proof.Proof.Gen.ReferenceIdeal.Read
import proofs.«121970_j77781857730660_2_alg».proof.Proof.CenDef
import proofs.«121970_j77781857730660_2_alg».proof.Proof.Centroid
import proofs.«121970_j77781857730660_2_alg».proof.Proof.Spatial
import proofs.«121970_j77781857730660_2_alg».proof.Proof.RefMlp
import proofs.«121970_j77781857730660_2_alg».proof.Proof.LibScatterRows
import Idealize.ShloMosaic.Lib.ValueIdx

noncomputable section

open scoped BigOperators

namespace Cert.Bridge

open Cert.ReferenceIdeal Cert.ReferenceIdeal.Read Cert.ReferenceIdeal.Facts₀ Idealize.ShloMosaic Idealize.ShloMosaic.ValueIdx

variable (x0 : FVec Ideal S1000000x128 .f32) (x1 : FVec Ideal S1000000x3 .f32) (x2 : FVec Ideal S119 .f32)
  (x3 : FVec Ideal S128x64 .f32) (x4 : FVec Ideal S64 .f32) (x5 : FVec Ideal S64x1 .f32) (x6 : FVec Ideal S1 .f32)
  (x7 x8 : IVec S1000000 32)

/-- The kernel's per-atom update as a function of the arguments: the network of the atom's feature row times its
    squared distance to the GUARDED centroid of its segment. -/
def updK : S1000000x1.Idx → EReal := fun j =>
  Cert.Mlp.row (fun l => x0 (ix2 ⟨(j 0).val, idx2_lt0 j⟩ l)) (fun l k => x3 (ix2 l k)) (fun k => x4 (ix1 k)) (fun k => x5 (ix2 k 0)) (x6 (ix1 0))
    * Cert.Spatial.spatialOf gather_S50000x3_S1000000x1_S1000000x3_1_0_n_n_0_1_13 (Cert.Centroid.cenK x1 x2 x7 x8) x1
        (val_main_v23 (F := Ideal) x8) bcast_S1000000_S1000000x1_0 reducesTo_S1000000x3_S1000000_d1 h_S_ j

/-- The reference's squared-distance column is `spatialOf` of its own (unguarded) table. -/
theorem ref_spatial : val_main_v37 (F := Ideal) x1 x2 x7 x8
    = Cert.Spatial.spatialOf gather_S50000x3_S1000000x1_S1000000x3_1_0_n_n_0_1_13 (val_main_v17 (F := Ideal) x1 x2 x7 x8) x1
        (val_main_v23 (F := Ideal) x8) bcast_S1000000_S1000000x1_0 reducesTo_S1000000x3_S1000000_d1 h_S_ := rfl

/-- ON AN ATOM THE FINAL SEGMENT SUM KEEPS the reference's update is the kernel's. -/
theorem upd_eq (hpos : ∀ k : S119.Idx, (0 : EReal) < x2 k) (j : S1000000x1.Idx)
    (hj : ∃ i, scatter_S50000x1_S1000000x1_S1000000x1_1_0_0_1.resultIdx? j (val_main_v40 (F := Ideal) x8) = some i) :
    val_main_v38 (F := Ideal) x0 x1 x2 x3 x4 x5 x6 x7 x8 j = updK x0 x1 x2 x3 x4 x5 x6 x7 x8 j := by
  obtain ⟨p, z, rfl⟩ : ∃ (p : Fin 1000000) (z : Fin 1), j = ix2 p z := ⟨j 0, j 1, eq_ix2 j⟩
  obtain rfl : z = 0 := Subsingleton.elim _ _
  obtain ⟨i, hi⟩ := hj
  rw [val_main_v38_apply, Cert.ReferenceIdeal.RefValue.mlp_apply, ref_spatial]
  unfold updK
  rw [Cert.Spatial.spatialOf_congr _ (Cert.Centroid.cenK x1 x2 x7 x8) (val_main_v17 (F := Ideal) x1 x2 x7 x8) x1 _ _ _ _ p
    (fun k => Cert.Centroid.gather_cen_eq x1 x2 x7 x8 hpos p i hi k)]
  rfl

/-- THE TWO RESULTS: the reference's final segment sum of its updates is the same sum of the kernel's updates. -/
theorem result_eq (hpos : ∀ k : S119.Idx, (0 : EReal) < x2 k) :
    val_main_v41 (F := Ideal) x0 x1 x2 x3 x4 x5 x6 x7 x8
      = Host.scatterAdd (F := Ideal) (φ := .f32) scatter_S50000x1_S1000000x1_S1000000x1_1_0_0_1 (val_main_v39 (F := Ideal)) (val_main_v40 (F := Ideal) x8)
          (updK x0 x1 x2 x3 x4 x5 x6 x7 x8) := by
  unfold val_main_v41
  exact Cert.Lib.ScatterRows.hostScatterAdd_congr _ _ _ _ _ (fun j hj => upd_eq x0 x1 x2 x3 x4 x5 x6 x7 x8 hpos j hj)

end Cert.Bridge

end
-- ==== Proof.KerRun.lean ====
/-
  The kernel program's run, read: its result is the segment sum, over the segment ids, of the per-atom updates
  `Cert.Bridge.updK` of the arguments — the network of the atom's feature row times its squared distance to the
  guarded centroid — and its arguments end unchanged. The region's output array is the function of
  `Cert.KernelIdeal.Arr`; the arrays it reads are the arguments, two reshaped biases, and the squared-distance
  column the host operations before the region compute; the four host operations after it are the final segment sum.
-/
import proofs.«121970_j77781857730660_2_alg».proof.Proof.Gen.KernelIdeal.Frame
import proofs.«121970_j77781857730660_2_alg».proof.Proof.KerArr
import proofs.«121970_j77781857730660_2_alg».proof.Proof.KerHost
import proofs.«121970_j77781857730660_2_alg».proof.Proof.Bridge

noncomputable section

namespace Cert.KernelIdeal.Run

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The kernel's per-atom updates, of the arguments as launched. -/
abbrev upd (c : Dev nD) : S1000000x1.Idx → EReal :=
  Cert.Bridge.updK (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The region's output array is the array of those updates. -/
theorem G_eq (c : Dev nD) : Arr.G m c = upd m c := by
  funext j
  have e0 : V m c (Pipeline.arrRef spec0 0) = m ((c : Thread nD τ).loc main_arg0) := V_main_arg0 m c
  have e2 : V m c (Pipeline.arrRef spec0 2) = m ((c : Thread nD τ).loc main_arg3) := V_main_arg3 m c
  have e4 : V m c (Pipeline.arrRef spec0 4) = m ((c : Thread nD τ).loc main_arg5) := V_main_arg5 m c
  have e3 : ∀ k : Fin 64, V m c (Pipeline.arrRef spec0 3) (ix2 (0 : Fin 1) k) = m ((c : Thread nD τ).loc main_arg4) (ix1 k) :=
    fun k => Host.V_b1 m c 0 k
  have e5 : V m c (Pipeline.arrRef spec0 5) (ix2 (0 : Fin 1) (0 : Fin 1)) = m ((c : Thread nD τ).loc main_arg6) (ix1 0) := Host.V_b2 m c 0 0
  have e1 := congrFun (Host.V_spatial m c) j
  unfold Arr.G Arr.rowFn
  exact Arr.row_mul_congr _ _ _ _ _ _ _ _ _ _ _ _ (funext fun l => congrFun e0 _) (funext fun l => funext fun k => congrFun e2 _)
    (funext e3) (funext fun k => congrFun e4 _) e5 e1

/-- THE KERNEL'S RUN: every weakly fair execution terminates with the result at the segment sum of the updates and the
    arguments as launched. -/
theorem run : θ_run defs (onTc (τ := τ) (main (F := Ideal))) ⟨m, fun _ => 0, ρ⟩ (fun r => ∀ c : Dev nD,
      r.2.mem ((c.tc : Thread nD τ).loc main_v37)
        = Host.scatterAdd (F := Ideal) (φ := .f32) scatter_S50000x1_S1000000x1_S1000000x1_1_0_0_1
            (broadcastInDim S50000x1 ![] bcast_S_S50000x1 (constant (F := Ideal) S_ .f32 0x00000000#32))
            (broadcastInDim S1000000x1 ![0] bcast_S1000000_S1000000x1_0 (m ((c : Thread nD τ).loc main_arg8))) (upd m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v37 (Pipeline.mem_restRefs_of main_v37 (by decide) (by decide))).trans
        ((Host.tail_eq m c (Arr.G m c) (Arr.final m c)).trans (congrArg _ (G_eq m c))),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      (((h c).2 main_arg4 (Pipeline.mem_restRefs_of main_arg4 (by decide) (by decide))).trans (W_main_arg4 m (dats m) c)),
      ((h c).1 4).trans (((dats m 0 c).arrAt_in 4 rfl _).trans ((A_eq m c 4).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.KernelIdeal.Run

end
-- ==== Proof.PreMasses.lean ====
import proofs.«121970_j77781857730660_2_alg».proof.Defs
import proofs.«121970_j77781857730660_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

/-!
# The precondition gives positive masses

The precondition `finite_inputs` is a conjunction of `jnp.all` tests on the nine arguments; its last conjunct is
`all (masses_table > 0)`. When the precondition evaluates to 1 at the ideal values, every entry of the mass table is
a positive extended real.
-/

noncomputable section

namespace Cert.PreMasses

open Cert.Pre_finite_inputs Idealize.ShloMosaic Idealize.ShloMosaic.ValueIdx

/-- The scalar shape has one index. -/
instance : Subsingleton S_.Idx := ⟨fun a b => funext fun d => d.elim0⟩

/-- A one-bit word made from a Boolean is 1 exactly when the Boolean is true. -/
theorem ofBool_eq_one {b : Bool} : BitVec.ofBool b = 1#1 ↔ b = true := by cases b <;> decide

/-- The last six operations of the precondition: if their result is 1, every mass is positive. The result is the
    conjunction of the earlier tests with `all (a2 > 0)`; the second conjunct being 1 says every comparison
    `a2 k > 0` is 1, and at the ideal values that comparison is the order of the extended reals against the literal 0. -/
theorem part2_pos [Cert.Pre_finite_inputs.Facts] (a2 : FVec Ideal S119 .f32) (v33 : IVec S_ 1)
    (e : fn_part2 (F := Ideal) a2 v33 ix0 = 1#1) (k : S119.Idx) : (0 : EReal) < a2 k := by
  unfold fn_part2 at e
  have h36 := (IntOp.andi_eq_one.1 e).2
  have hk := Host.reduce_andi_all _ _ _ _ _ h36 k
  rw [cmpf_apply, Ideal.cmpf_def, broadcastInDim_apply _ _ _ k ix0 (fun a => a.elim0), constant_apply,
    Ideal.ofBits_zero_f32] at hk
  unfold Ideal.cmp at hk
  rw [ofBool_eq_one] at hk
  exact of_decide_eq_true hk

/-- If the precondition holds of the nine arguments at the ideal values, every entry of the mass table (the third
    argument) is positive. -/
theorem masses_pos [Cert.Pre_finite_inputs.Facts]
    (a0 : FVec Ideal S1000000x128 .f32) (a1 : FVec Ideal S1000000x3 .f32) (a2 : FVec Ideal S119 .f32)
    (a3 : FVec Ideal S128x64 .f32) (a4 : FVec Ideal S64 .f32) (a5 : FVec Ideal S64x1 .f32) (a6 : FVec Ideal S1 .f32)
    (a7 : IVec S1000000 32) (a8 : IVec S1000000 32)
    (h : Cert.Pre_finite_inputs.fn (F := Ideal) a0 a1 a2 a3 a4 a5 a6 a7 a8 = fun _ => 1#1) :
    ∀ k : Cert.Pre_finite_inputs.S119.Idx, (0 : EReal) < a2 k := by
  intro k
  have e := congrFun h ix0
  unfold Cert.Pre_finite_inputs.fn Cert.Pre_finite_inputs.fn_part1 at e
  exact part2_pos a2 _ e k

end Cert.PreMasses

end
-- ==== Proof.lean ====
/- The five claims of this certificate.

   The program: per atom, a two-layer network of the atom's 128 scalar features (64 hidden units, activation x · σ(x))
   times the atom's squared distance to the mass-weighted centroid of its molecule, summed per molecule. The kernel
   computes the network and the product in one pipelined region over blocks of 8000 atoms and leaves the centroids,
   the squared distances and the final per-molecule sum to host operations; its centroid is guarded,
   `where(den > 0, num / den, 0)`, where the reference divides plainly.

   Frames: the two kernel programs' are the generated frame certificates; the reference's is its generated run with the
   result dropped. `preserves` is `True`: the idealization rewrote nothing. `algebraic`: at the extended reals the
   kernel's result is the segment sum of per-atom updates (`Cert.KernelIdeal.Run.run`) and so is the reference's
   (its generated run, read stage by stage); the final segment sum drops every atom whose molecule id is out of range,
   and on an atom it keeps the molecule's summed mass is positive — the precondition says every entry of the mass table
   is positive — so the guard holds, the two centroid rows agree, and the two updates are equal (`Cert.Bridge`). -/
import proofs.«121970_j77781857730660_2_alg».proof.Defs
import proofs.«121970_j77781857730660_2_alg».proof.Proof.Gen.Kernel
import proofs.«121970_j77781857730660_2_alg».proof.Proof.Gen.Kernel.Skeleton
import proofs.«121970_j77781857730660_2_alg».proof.Proof.Gen.Kernel.Launch
import proofs.«121970_j77781857730660_2_alg».proof.Proof.Gen.Kernel.Points
import proofs.«121970_j77781857730660_2_alg».proof.Proof.Gen.Kernel.Frame
import proofs.«121970_j77781857730660_2_alg».proof.Proof.Gen.KernelIdeal
import proofs.«121970_j77781857730660_2_alg».proof.Proof.Gen.KernelIdeal.Skeleton
import proofs.«121970_j77781857730660_2_alg».proof.Proof.Gen.KernelIdeal.Launch
import proofs.«121970_j77781857730660_2_alg».proof.Proof.Gen.KernelIdeal.Points
import proofs.«121970_j77781857730660_2_alg».proof.Proof.Gen.KernelIdeal.Frame
import proofs.«121970_j77781857730660_2_alg».proof.Proof.Gen.ReferenceIdeal
import proofs.«121970_j77781857730660_2_alg».proof.Proof.Gen.Pre_finite_inputs
import proofs.«121970_j77781857730660_2_alg».proof.Proof.Gen.ReferenceIdeal.Run
import proofs.«121970_j77781857730660_2_alg».proof.Proof.Gen.ReferenceIdeal.Read
import proofs.«121970_j77781857730660_2_alg».proof.Proof.KerRun
import proofs.«121970_j77781857730660_2_alg».proof.Proof.Bridge
import proofs.«121970_j77781857730660_2_alg».proof.Proof.PreMasses
import Idealize.ShloMosaic.Adequacy
import Idealize.ShloMosaic.Init

noncomputable section

namespace Cert.Proof

open Idealize.ShloMosaic Idealize.SL.Sem

theorem frame_Kernel : Cert.frame_Kernel := fun m ρ _ => Cert.Kernel.Gen.frame m ρ

theorem frame_KernelIdeal : Cert.frame_KernelIdeal := fun m ρ _ => Cert.KernelIdeal.Gen.frame m ρ

theorem frame_ReferenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, both programs end with the segment sum of the kernel's per-atom
    updates: the kernel by its run, the reference by its run and the law of `Cert.Bridge`, which uses the
    precondition's positivity of the mass table. -/
theorem algebraic : Cert.algebraic_KernelIdeal_ReferenceIdeal := by
  intro m ρ m' ρ' hpre hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1, (hagree c).2.2.2.2.2.2.2.2]
  exact Cert.Bridge.result_eq _ _ _ _ _ _ _ _ _ (Cert.PreMasses.masses_pos _ _ _ _ _ _ _ _ _ (hpre c))

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
